-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S256 .f32) (main_arg9 : FVec F S256x256 .f32) (main_arg10 : FVec F S256 .f32) (main_arg11 : FVec F S256x1 .f32) (main_arg12 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg11
  let main_cst_18 : FVec F S_ .f32 := constant S_ .f32 0x7F800000#32
  let main_v50 : FVec F S256x1 .f32 := broadcastInDim S256x1 ![] bcast_S_S256x1 main_cst_18
  fn_part3 (F := F) main_arg12 main_v48 main_v49 main_v50

def fn_part1 {F : FTy → Type} [FloatOps F] (main_arg5 : FVec F S64x128 .f32) (main_arg6 : FVec F S128 .f32) (main_arg7 : FVec F S128x256 .f32) (main_arg8 : FVec F S256 .f32) (main_arg9 : FVec F S256x256 .f32) (main_arg10 : FVec F S256 .f32) (main_arg11 : FVec F S256x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000 .f32) (main_arg3 : FVec F S128x64 .f32) (main_arg4 : FVec F S64 .f32) (main_arg5 : FVec F S64x128 .f32) (main_arg6 : FVec F S128 .f32) (main_arg7 : FVec F S128x256 .f32) (main_arg8 : FVec F S256 .f32) (main_arg9 : FVec F S256x256 .f32) (main_arg10 : FVec F S256 .f32) (main_arg11 : FVec F S256x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩
abbrev S50000x256 : Shape := ⟨2, ![50000, 256]⟩
abbrev S5000x256 : Shape := ⟨2, ![5000, 256]⟩
abbrev S850000x256 : Shape := ⟨2, ![850000, 256]⟩
abbrev S1x256 : Shape := ⟨2, ![1, 256]⟩
abbrev S1x1 : Shape := ⟨2, ![1, 1]⟩
abbrev S50000x1 : Shape := ⟨2, ![50000, 1]⟩
abbrev S5000x1 : Shape := ⟨2, ![5000, 1]⟩

abbrev nBuf : Space → Nat
  | .hbm => 133
  | .vmem => 46
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x64, .f32⟩
  | 4 => ⟨S64, .f32⟩
  | 5 => ⟨S64x128, .f32⟩
  | 6 => ⟨S128, .f32⟩
  | 7 => ⟨S128x256, .f32⟩
  | 8 => ⟨S256, .f32⟩
  | 9 => ⟨S256x256, .f32⟩
  | 10 => ⟨S256, .f32⟩
  | 11 => ⟨S256x1, .f32⟩
  | 12 => ⟨S1, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S50000, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x64, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x64, .f32⟩
  | 65 => ⟨S850000x1, .f32⟩
  | 66 => ⟨S850000x64, .f32⟩
  | 67 => ⟨S850000x64, .f32⟩
  | 68 => ⟨S_, .f32⟩
  | 69 => ⟨S50000x64, .f32⟩
  | 70 => ⟨S850000x1, .i32⟩
  | 71 => ⟨S50000x64, .f32⟩
  | 72 => ⟨S1x64, .f32⟩
  | 73 => ⟨S50000x64, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x256, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x256, .f32⟩
  | 103 => ⟨S850000x1, .f32⟩
  | 104 => ⟨S850000x256, .f32⟩
  | 105 => ⟨S850000x256, .f32⟩
  | 106 => ⟨S_, .f32⟩
  | 107 => ⟨S50000x256, .f32⟩
  | 108 => ⟨S850000x1, .i32⟩
  | 109 => ⟨S50000x256, .f32⟩
  | 110 => ⟨S1x256, .f32⟩
  | 111 => ⟨S50000x256, .f32⟩
  | 112 => ⟨S50000x256, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x256, .f32⟩
  | 122 => ⟨S850000x1, .f32⟩
  | 123 => ⟨S850000x256, .f32⟩
  | 124 => ⟨S850000x256, .f32⟩
  | 125 => ⟨S_, .f32⟩
  | 126 => ⟨S50000x256, .f32⟩
  | 127 => ⟨S850000x1, .i32⟩
  | _ => ⟨S50000x128, .f32⟩

abbrev hbmTy0_1 (i : Nat) : BufTy := match i % 128 with
  | 0 => ⟨S50000x256, .f32⟩
  | 1 => ⟨S1x256, .f32⟩
  | 2 => ⟨S50000x256, .f32⟩
  | 3 => ⟨S1x1, .f32⟩
  | 4 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x256, .f32⟩
  | .local _ .vmem, ⟨23, _⟩ => ⟨S5000x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S1x256, .f32⟩
  | .local _ .vmem, ⟨28, _⟩ => ⟨S5000x256, .f32⟩
  | .local _ .vmem, ⟨29, _⟩ => ⟨S5000x256, .f32⟩
  | .local _ .vmem, ⟨30, _⟩ => ⟨S5000x256, .f32⟩
  | .local _ .vmem, ⟨31, _⟩ => ⟨S5000x256, .f32⟩
  | .local _ .vmem, ⟨32, _⟩ => ⟨S256x256, .f32⟩
  | .local _ .vmem, ⟨33, _⟩ => ⟨S5000x256, .f32⟩
  | .local _ .vmem, ⟨34, _⟩ => ⟨S5000x256, .f32⟩
  | .local _ .vmem, ⟨35, _⟩ => ⟨S5000x256, .f32⟩
  | .local _ .vmem, ⟨36, _⟩ => ⟨S5000x256, .f32⟩
  | .local _ .vmem, ⟨37, _⟩ => ⟨S1x256, .f32⟩
  | .local _ .vmem, ⟨38, _⟩ => ⟨S5000x256, .f32⟩
  | .local _ .vmem, ⟨39, _⟩ => ⟨S5000x256, .f32⟩
  | .local _ .vmem, ⟨40, _⟩ => ⟨S5000x256, .f32⟩
  | .local _ .vmem, ⟨41, _⟩ => ⟨S5000x256, .f32⟩
  | .local _ .vmem, ⟨42, _⟩ => ⟨S256x1, .f32⟩
  | .local _ .vmem, ⟨43, _⟩ => ⟨S1x1, .f32⟩
  | .local _ .vmem, ⟨44, _⟩ => ⟨S5000x1, .f32⟩
  | .local _ .vmem, ⟨45, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_15 : Ref sig .tc := ⟨.hbm, 113, rfl⟩
abbrev main_v81 : Ref sig .tc := ⟨.hbm, 114, rfl⟩
abbrev main_v82 : Ref sig .tc := ⟨.hbm, 115, rfl⟩
abbrev main_c_16 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg3_0 : Ref sig .tc := ⟨.vmem, 44, rfl⟩
abbrev cc8_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem3_0 : DmaSem sig := 44
abbrev cc8_sem3_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  shapeCasts_S1_S1x1 : S1.ShapeCasts S1x1
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x256.size a ≤ S50000x256.size a
  hwx5_2 : ∀ i : grid5.Coords, EltTy.bits .f32 = 32 ∨ (Rect.block (s := S50000x256) S5000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S50000x256.size a
  hwx6_0 : ∀ i : grid6.Coords, EltTy.bits .f32 = 32 ∨ (Rect.block (s := S50000x256) S5000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x256.size a ≤ S50000x256.size a
  hwx6_2 : ∀ i : grid6.Coords, EltTy.bits .f32 = 32 ∨ (Rect.block (s := S50000x256) S5000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x256.size a ≤ S50000x256.size a
  hwx7_0 : ∀ i : grid7.Coords, EltTy.bits .f32 = 32 ∨ (Rect.block (s := S50000x256) S5000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x256.size a ≤ S50000x256.size a
  hwx7_2 : ∀ i : grid7.Coords, EltTy.bits .f32 = 32 ∨ (Rect.block (s := S50000x256) S5000x256.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x256.size a ≤ S50000x256.size a
  hwx8_0 : ∀ i : grid8.Coords, EltTy.bits .f32 = 32 ∨ (Rect.block (s := S50000x256) S5000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x1.size a ≤ S256x1.size a
  hwx8_1 : ∀ i : grid8.Coords, EltTy.bits .f32 = 32 ∨ (Rect.block (s := S256x1) S256x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x1.size a ≤ S50000x1.size a
  hwx8_3 : ∀ i : grid8.Coords, EltTy.bits .f32 = 32 ∨ (Rect.block (s := S50000x1) S5000x1.size (cc8_transform_3 i) (hinb8_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S5000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S5000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S5000x256.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v95) S5000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S256x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v96) S1x1.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v97) S5000x1.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S850000 : Shape := ⟨1, ![850000]⟩
abbrev S_ : Shape := ⟨0, ![]⟩
abbrev S50000x64 : Shape := ⟨2, ![50000, 64]⟩
abbrev S850000x1 : Shape := ⟨2, ![850000, 1]⟩
abbrev S850000x64 : Shape := ⟨2, ![850000, 64]⟩
abbrev S1x64 : Shape := ⟨2, ![1, 64]⟩
abbrev S850000x128 : Shape := ⟨2, ![850000, 128]⟩
abbrev S1x128 : Shape := ⟨2, ![1, 128]⟩
abbrev S50000x256 : Shape := ⟨2, ![50000, 256]⟩
abbrev S850000x256 : Shape := ⟨2, ![850000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 247
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x64, .f32⟩
  | 4 => ⟨S64, .f32⟩
  | 5 => ⟨S64x128, .f32⟩
  | 6 => ⟨S128, .f32⟩
  | 7 => ⟨S128x256, .f32⟩
  | 8 => ⟨S256, .f32⟩
  | 9 => ⟨S256x256, .f32⟩
  | 10 => ⟨S256, .f32⟩
  | 11 => ⟨S256x1, .f32⟩
  | 12 => ⟨S1, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S50000, .f32⟩
  | 22 => ⟨S850000, .f32⟩
  | 23 => ⟨S50000x64, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x64, .f32⟩
  | 65 => ⟨S850000x1, .f32⟩
  | 66 => ⟨S850000x64, .f32⟩
  | 67 => ⟨S850000x64, .f32⟩
  | 68 => ⟨S_, .f32⟩
  | 69 => ⟨S50000x64, .f32⟩
  | 70 => ⟨S850000x1, .i32⟩
  | 71 => ⟨S50000x64, .f32⟩
  | 72 => ⟨S1x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S50000x128, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x256, .f32⟩
  | 6 => ⟨S_, .f32⟩
  | 7 => ⟨S50000, .f32⟩
  | 8 => ⟨S850000x1, .i32⟩
  | 9 => ⟨S50000, .f32⟩
  | 10 => ⟨S_, .f32⟩
  | 11 => ⟨S50000, .f32⟩
  | 12 => ⟨S50000, .i1⟩
  | 13 => ⟨S50000, .f32⟩
  | 14 => ⟨S_, .f32⟩
  | 15 => ⟨S_, .f32⟩
  | 16 => ⟨S50000, .f32⟩
  | 17 => ⟨S50000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000, .f32⟩
  | 27 => ⟨S850000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000x256, .f32⟩
  | 47 => ⟨S850000x1, .f32⟩
  | 48 => ⟨S850000x256, .f32⟩
  | 49 => ⟨S850000x256, .f32⟩
  | 50 => ⟨S_, .f32⟩
  | 51 => ⟨S50000x256, .f32⟩
  | 52 => ⟨S850000x1, .i32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S50000x256, .f32⟩
  | 61 => ⟨S_, .f32⟩
  | 62 => ⟨S50000, .f32⟩
  | 63 => ⟨S850000x1, .i32⟩
  | 64 => ⟨S50000, .f32⟩
  | 65 => ⟨S_, .f32⟩
  | 66 => ⟨S50000, .f32⟩
  | 67 => ⟨S50000, .i1⟩
  | 68 => ⟨S50000, .f32⟩
  | 69 => ⟨S_, .f32⟩
  | 70 => ⟨S_, .f32⟩
  | 71 => ⟨S50000, .f32⟩
  | 72 => ⟨S50000, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000, .f32⟩
  | 82 => ⟨S850000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000, .f32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x256, .f32⟩
  | 102 => ⟨S850000x1, .f32⟩
  | 103 => ⟨S850000x256, .f32⟩
  | 104 => ⟨S850000x256, .f32⟩
  | 105 => ⟨S_, .f32⟩
  | 106 => ⟨S50000x256, .f32⟩
  | 107 => ⟨S850000x1, .i32⟩
  | 108 => ⟨S50000x256, .f32⟩
  | 109 => ⟨S1x256, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S50000x1, .f32⟩
  | 116 => ⟨S1x1, .f32⟩
  | 117 => ⟨S50000x1, .f32⟩
  | 118 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_call2_v0 : Ref sig .tc := ⟨.hbm, 88, rfl⟩
abbrev main_call2_v1 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_14 : Ref sig .tc := ⟨.hbm, 101, rfl⟩
abbrev main_v66 : Ref sig .tc := ⟨.hbm, 102, rfl⟩
abbrev main_v67 : Ref sig .tc := ⟨.hbm, 103, rfl⟩
abbrev main_c_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_16 : Ref sig .tc := ⟨.hbm, 111, rfl⟩
abbrev main_v74 : Ref sig .tc := ⟨.hbm, 112, rfl⟩
abbrev main_v75 : Ref sig .tc := ⟨.hbm, 113, rfl⟩
abbrev main_c_17 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call3_cst : Ref sig .tc := ⟨.hbm, 130, rfl⟩
abbrev main_call3_v0 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_21 : Ref sig .tc := ⟨.hbm, 142, rfl⟩
abbrev main_call4_v0 : Ref sig .tc := ⟨.hbm, 143, rfl⟩
abbrev main_call4_v1 : Ref sig .tc := ⟨.hbm, 144, rfl⟩
abbrev main_v98 : Ref sig .tc := ⟨.hbm, 145, rfl⟩
abbrev main_c_22 : Ref sig .tc := ⟨.hbm, 146, rfl⟩
abbrev main_v99 : Ref sig .tc := ⟨.hbm, 147, rfl⟩
abbrev main_v100 : Ref sig .tc := ⟨.hbm, 148, rfl⟩
abbrev main_c_23 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_24 : Ref sig .tc := ⟨.hbm, 156, rfl⟩
abbrev main_v107 : Ref sig .tc := ⟨.hbm, 157, rfl⟩
abbrev main_v108 : Ref sig .tc := ⟨.hbm, 158, rfl⟩
abbrev main_c_25 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_c_26 : Ref sig .tc := ⟨.hbm, 166, rfl⟩
abbrev main_v115 : Ref sig .tc := ⟨.hbm, 167, rfl⟩
abbrev main_v116 : Ref sig .tc := ⟨.hbm, 168, rfl⟩
abbrev main_c_27 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_28 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_call5_cst : Ref sig .tc := ⟨.hbm, 185, rfl⟩
abbrev main_call5_v0 : Ref sig .tc := ⟨.hbm, 186, rfl⟩
abbrev main_v131 : Ref sig .tc := ⟨.hbm, 187, rfl⟩
abbrev main_v132 : Ref sig .tc := ⟨.hbm, 188, rfl⟩
abbrev main_cst_29 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_30 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_31 : Ref sig .tc := ⟨.hbm, 197, rfl⟩
abbrev main_call6_v0 : Ref sig .tc := ⟨.hbm, 198, rfl⟩
abbrev main_call6_v1 : Ref sig .tc := ⟨.hbm, 199, rfl⟩
abbrev main_v139 : Ref sig .tc := ⟨.hbm, 200, rfl⟩
abbrev main_c_32 : Ref sig .tc := ⟨.hbm, 201, rfl⟩
abbrev main_v140 : Ref sig .tc := ⟨.hbm, 202, rfl⟩
abbrev main_v141 : Ref sig .tc := ⟨.hbm, 203, rfl⟩
abbrev main_c_33 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_c_34 : Ref sig .tc := ⟨.hbm, 211, rfl⟩
abbrev main_v148 : Ref sig .tc := ⟨.hbm, 212, rfl⟩
abbrev main_v149 : Ref sig .tc := ⟨.hbm, 213, rfl⟩
abbrev main_c_35 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_c_36 : Ref sig .tc := ⟨.hbm, 221, rfl⟩
abbrev main_v156 : Ref sig .tc := ⟨.hbm, 222, rfl⟩
abbrev main_v157 : Ref sig .tc := ⟨.hbm, 223, rfl⟩
abbrev main_c_37 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_cst_38 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_call7_cst : Ref sig .tc := ⟨.hbm, 240, rfl⟩
abbrev main_call7_v0 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KernelRun.lean ====
/-
  The idealized kernel's run with its RESULT named. The program is nine pipelined regions among stretches of host
  operations; the buffer contents at the seventeen segment boundaries are the fold `W0 … W17` from the launch memory
  (a host stretch applies its operations, a region replaces its arrays by what its write-backs leave). Every weakly
  fair execution terminates with the result buffer `main_v97` at the last boundary's contents, `W17 … main_v97`,
  and the thirteen argument arrays as launched. What `W17 … main_v97` IS, as a function of the arguments, is read off
  the fold segment by segment in the modules that import this one.
-/
import proofs.«143142_j66022237274283_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting, with the result buffer at the
    last segment boundary's contents and every argument array as launched: the launch over the seventeen segments,
    the last thread state read against the final memory at every unscoped buffer. -/
theorem run : θ_run defs (onTc (τ := τ) (main (F := F))) ⟨m, fun _ => 0, ρ⟩ (fun r => ∀ c : Dev nD,
      r.2.mem ((c.tc : Thread nD τ).loc main_v97) = W17 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v97 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c)⟩)

end Cert.KernelIdeal.RunV

end
-- ==== Proof.Keep.lean ====
/-
  Which buffers each segment of the idealized kernel leaves alone. A host stretch changes only the result buffers of
  its operations; a region changes only its own windows' arrays. So a buffer that is no result of a stretch and no
  array of a region holds, at the boundary after it, what it held at the boundary before. The lemmas below say this per
  segment, and then over the spans of segments that lie between two uses of a buffer (the edge lists and the edge
  normalisation are computed once, before the first region, and read again by every layer; an argument array is read
  where its layer starts).
-/
import proofs.«143142_j66022237274283_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- Every operation of a listed stretch writes a buffer of the given list. -/
macro "writes_in_list" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)))

/-! ## What each host stretch writes -/

abbrev wr0 : List (Ref sig .tc) := [main_v0, main_v1, main_v2, main_v3, main_v4, main_v5, main_v6, main_cst, main_v7, main_v8, main_cst_0, main_v9, main_v10, main_v11, main_cst_1, main_v12, main_v13, main_v14, main_cst_2]
abbrev wr0_1 : List (Ref sig .tc) := [main_call0_v0, main_call0_v1, main_v15]
abbrev wr0_2 : List (Ref sig .tc) := [main_c, main_v16, main_v17, main_c_3, main_v18, main_v19, main_v20, main_v21, main_v22, main_v23, main_c_4, main_v24, main_v25, main_c_5, main_v26, main_v27, main_v28, main_v29, main_v30, main_v31]
abbrev wr1 : List (Ref sig .tc) := [main_c_6, main_v33, main_v34, main_c_7, main_v35, main_v36, main_v37, main_v38, main_v39, main_v40, main_v41, main_v42, main_cst_8, main_v43, main_v44, main_v45, main_v46]
abbrev wr3 : List (Ref sig .tc) := [main_c_9, main_v49, main_v50, main_c_10, main_v51, main_v52, main_v53, main_v54, main_v55, main_v56, main_v57, main_v58, main_cst_11, main_v59, main_v60, main_v61, main_v62]
abbrev wr5 : List (Ref sig .tc) := [main_c_12, main_v65, main_v66, main_c_13, main_v67, main_v68, main_v69, main_v70, main_v71, main_v72, main_v73, main_v74, main_cst_14, main_v75, main_v76, main_v77, main_v78]
abbrev wr7 : List (Ref sig .tc) := [main_c_15, main_v81, main_v82, main_c_16, main_v83, main_v84, main_v85, main_v86, main_v87, main_v88, main_v89, main_v90, main_cst_17, main_v91, main_v92, main_v93, main_v94]
abbrev wr8 : List (Ref sig .tc) := [main_v96]

theorem wr0_sub : (hostOps0 : List (HloOp τ sig (Elt F))).Forall fun op => op.writes ⊆ (wr0.map (Proc.devRef (τ := τ) .tc)).toFinset := by writes_in_list
theorem wr0_1_sub : (hostOps0_1 : List (HloOp τ sig (Elt F))).Forall fun op => op.writes ⊆ (wr0_1.map (Proc.devRef (τ := τ) .tc)).toFinset := by writes_in_list
theorem wr0_2_sub : (hostOps0_2 : List (HloOp τ sig (Elt F))).Forall fun op => op.writes ⊆ (wr0_2.map (Proc.devRef (τ := τ) .tc)).toFinset := by writes_in_list
theorem wr1_sub : (hostOps1 : List (HloOp τ sig (Elt F))).Forall fun op => op.writes ⊆ (wr1.map (Proc.devRef (τ := τ) .tc)).toFinset := by writes_in_list
theorem wr3_sub : (hostOps3 : List (HloOp τ sig (Elt F))).Forall fun op => op.writes ⊆ (wr3.map (Proc.devRef (τ := τ) .tc)).toFinset := by writes_in_list
theorem wr5_sub : (hostOps5 : List (HloOp τ sig (Elt F))).Forall fun op => op.writes ⊆ (wr5.map (Proc.devRef (τ := τ) .tc)).toFinset := by writes_in_list
theorem wr7_sub : (hostOps7 : List (HloOp τ sig (Elt F))).Forall fun op => op.writes ⊆ (wr7.map (Proc.devRef (τ := τ) .tc)).toFinset := by writes_in_list
theorem wr8_sub : (hostOps8 : List (HloOp τ sig (Elt F))).Forall fun op => op.writes ⊆ (wr8.map (Proc.devRef (τ := τ) .tc)).toFinset := by writes_in_list

/-! ## One segment -/

theorem k1 (r : Ref sig .tc) (h : r ∉ wr0) : W1 m ρ c (Proc.devRef .tc r) = W0 m ρ c (Proc.devRef .tc r) :=
  StableHlo.after_of_writes_sub hostOps0 _ wr0_sub h
theorem k2 (r : Ref sig .tc) (h : r ∉ wr0_1) : W2 m ρ c (Proc.devRef .tc r) = W1 m ρ c (Proc.devRef .tc r) :=
  StableHlo.after_of_writes_sub hostOps0_1 _ wr0_1_sub h
theorem k3 (r : Ref sig .tc) (h : r ∉ wr0_2) : W3 m ρ c (Proc.devRef .tc r) = W2 m ρ c (Proc.devRef .tc r) :=
  StableHlo.after_of_writes_sub hostOps0_2 _ wr0_2_sub h
theorem k5 (r : Ref sig .tc) (h : r ∉ wr1) : W5 m ρ c (Proc.devRef .tc r) = W4 m ρ c (Proc.devRef .tc r) :=
  StableHlo.after_of_writes_sub hostOps1 _ wr1_sub h
theorem k8 (r : Ref sig .tc) (h : r ∉ wr3) : W8 m ρ c (Proc.devRef .tc r) = W7 m ρ c (Proc.devRef .tc r) :=
  StableHlo.after_of_writes_sub hostOps3 _ wr3_sub h
theorem k11 (r : Ref sig .tc) (h : r ∉ wr5) : W11 m ρ c (Proc.devRef .tc r) = W10 m ρ c (Proc.devRef .tc r) :=
  StableHlo.after_of_writes_sub hostOps5 _ wr5_sub h
theorem k14 (r : Ref sig .tc) (h : r ∉ wr7) : W14 m ρ c (Proc.devRef .tc r) = W13 m ρ c (Proc.devRef .tc r) :=
  StableHlo.after_of_writes_sub hostOps7 _ wr7_sub h
theorem k16 (r : Ref sig .tc) (h : r ∉ wr8) : W16 m ρ c (Proc.devRef .tc r) = W15 m ρ c (Proc.devRef .tc r) :=
  StableHlo.after_of_writes_sub hostOps8 _ wr8_sub h

/-! ## Spans -/

/-- No result of the three stretches before the first region. -/
abbrev Free3 (r : Ref sig .tc) : Prop := r ∉ wr0 ∧ r ∉ wr0_1 ∧ r ∉ wr0_2
/-- … and no array of the first region. -/
abbrev Free4 (r : Ref sig .tc) : Prop := Free3 r ∧ ∀ w, Pipeline.arrRef spec0 w ≠ r
/-- No result of a layer's host stretch and no array of its bias-and-clamp region. -/
abbrev FreeA (r : Ref sig .tc) : Prop := r ∉ wr1 ∧ ∀ w, Pipeline.arrRef spec1 w ≠ r
abbrev FreeB (r : Ref sig .tc) : Prop := r ∉ wr3 ∧ ∀ w, Pipeline.arrRef spec3 w ≠ r
abbrev FreeC (r : Ref sig .tc) : Prop := r ∉ wr5 ∧ ∀ w, Pipeline.arrRef spec5 w ≠ r
abbrev FreeD (r : Ref sig .tc) : Prop := r ∉ wr7 ∧ ∀ w, Pipeline.arrRef spec7 w ≠ r

theorem to3 (r : Ref sig .tc) (h : Free3 r) : W3 m ρ c (Proc.devRef .tc r) = m ((c : Thread nD τ).loc r) :=
  (k3 m ρ c r h.2.2).trans <| (k2 m ρ c r h.2.1).trans <| (k1 m ρ c r h.1).trans rfl
theorem to4 (r : Ref sig .tc) (h : Free4 r) : W4 m ρ c (Proc.devRef .tc r) = m ((c : Thread nD τ).loc r) :=
  (W4_of_ne m ρ c r h.2).trans (to3 m ρ c r h.1)

/-- Across a layer's host stretch and its bias-and-clamp region. -/
theorem s4_6 (r : Ref sig .tc) (h : FreeA r) : W6 m ρ c (Proc.devRef .tc r) = W4 m ρ c (Proc.devRef .tc r) :=
  (W6_of_ne m ρ c r h.2).trans (k5 m ρ c r h.1)
theorem s7_9 (r : Ref sig .tc) (h : FreeB r) : W9 m ρ c (Proc.devRef .tc r) = W7 m ρ c (Proc.devRef .tc r) :=
  (W9_of_ne m ρ c r h.2).trans (k8 m ρ c r h.1)
theorem s10_12 (r : Ref sig .tc) (h : FreeC r) : W12 m ρ c (Proc.devRef .tc r) = W10 m ρ c (Proc.devRef .tc r) :=
  (W12_of_ne m ρ c r h.2).trans (k11 m ρ c r h.1)
theorem s13_15 (r : Ref sig .tc) (h : FreeD r) : W15 m ρ c (Proc.devRef .tc r) = W13 m ρ c (Proc.devRef .tc r) :=
  (W15_of_ne m ρ c r h.2).trans (k14 m ρ c r h.1)
/-- … and across the next layer's product region as well. -/
theorem s4_7 (r : Ref sig .tc) (h : FreeA r) (h' : ∀ w, Pipeline.arrRef spec2 w ≠ r) : W7 m ρ c (Proc.devRef .tc r) = W4 m ρ c (Proc.devRef .tc r) :=
  (W7_of_ne m ρ c r h').trans (s4_6 m ρ c r h)
theorem s7_10 (r : Ref sig .tc) (h : FreeB r) (h' : ∀ w, Pipeline.arrRef spec4 w ≠ r) : W10 m ρ c (Proc.devRef .tc r) = W7 m ρ c (Proc.devRef .tc r) :=
  (W10_of_ne m ρ c r h').trans (s7_9 m ρ c r h)
theorem s10_13 (r : Ref sig .tc) (h : FreeC r) (h' : ∀ w, Pipeline.arrRef spec6 w ≠ r) : W13 m ρ c (Proc.devRef .tc r) = W10 m ρ c (Proc.devRef .tc r) :=
  (W13_of_ne m ρ c r h').trans (s10_12 m ρ c r h)

/-! ## A buffer untouched from the launch up to a layer boundary still holds its launch contents -/

abbrev Free7 (r : Ref sig .tc) : Prop := Free4 r ∧ FreeA r ∧ ∀ w, Pipeline.arrRef spec2 w ≠ r
abbrev Free10 (r : Ref sig .tc) : Prop := Free7 r ∧ FreeB r ∧ ∀ w, Pipeline.arrRef spec4 w ≠ r
abbrev Free13 (r : Ref sig .tc) : Prop := Free10 r ∧ FreeC r ∧ ∀ w, Pipeline.arrRef spec6 w ≠ r
abbrev Free15 (r : Ref sig .tc) : Prop := Free13 r ∧ FreeD r
abbrev Free16 (r : Ref sig .tc) : Prop := Free15 r ∧ r ∉ wr8

theorem to7 (r : Ref sig .tc) (h : Free7 r) : W7 m ρ c (Proc.devRef .tc r) = m ((c : Thread nD τ).loc r) :=
  (s4_7 m ρ c r h.2.1 h.2.2).trans (to4 m ρ c r h.1)
theorem to10 (r : Ref sig .tc) (h : Free10 r) : W10 m ρ c (Proc.devRef .tc r) = m ((c : Thread nD τ).loc r) :=
  (s7_10 m ρ c r h.2.1 h.2.2).trans (to7 m ρ c r h.1)
theorem to13 (r : Ref sig .tc) (h : Free13 r) : W13 m ρ c (Proc.devRef .tc r) = m ((c : Thread nD τ).loc r) :=
  (s10_13 m ρ c r h.2.1 h.2.2).trans (to10 m ρ c r h.1)
theorem to15 (r : Ref sig .tc) (h : Free15 r) : W15 m ρ c (Proc.devRef .tc r) = m ((c : Thread nD τ).loc r) :=
  (s13_15 m ρ c r h.2).trans (to13 m ρ c r h.1)
theorem to16 (r : Ref sig .tc) (h : Free16 r) : W16 m ρ c (Proc.devRef .tc r) = m ((c : Thread nD τ).loc r) :=
  (k16 m ρ c r h.2).trans (to15 m ρ c r h.1)
/-- … and up to the product region inside a layer (after the layer's host stretch and its bias-and-clamp region). -/
theorem to6 (r : Ref sig .tc) (h : Free4 r) (h' : FreeA r) : W6 m ρ c (Proc.devRef .tc r) = m ((c : Thread nD τ).loc r) :=
  (s4_6 m ρ c r h').trans (to4 m ρ c r h)
theorem to9 (r : Ref sig .tc) (h : Free7 r) (h' : FreeB r) : W9 m ρ c (Proc.devRef .tc r) = m ((c : Thread nD τ).loc r) :=
  (s7_9 m ρ c r h').trans (to7 m ρ c r h)
theorem to12 (r : Ref sig .tc) (h : Free10 r) (h' : FreeC r) : W12 m ρ c (Proc.devRef .tc r) = m ((c : Thread nD τ).loc r) :=
  (s10_12 m ρ c r h').trans (to10 m ρ c r h)

end Cert.KernelIdeal.Keep

end
-- ==== Proof.HostStages.lean ====
/-
  The host operations of the idealized kernel, stretch by stretch, against the reference's own stages. The kernel
  hoists the edge normalisation out of the layer loop: it builds the source and target lists (each edge list followed by
  one self loop per node), the weights (edge weights followed by ones), the weighted degree of every node, its inverse
  square root where the degree is positive and zero elsewhere, and from these one normalisation coefficient per edge
  — once. Then each layer gathers the projected rows at the edge sources, scales each by its edge's coefficient and
  sums them into the target rows. The reference does the same operations on the same operands (recomputing the
  coefficients in every layer), so each result buffer of a stretch holds the reference's stage of the same name,
  provided the stretch's inputs hold the corresponding stages: both sides are the same composition of the same host
  functions, which is all each proof uses (the gathers and the scatter-sums are never opened).
-/
import proofs.«143142_j66022237274283_1_alg».proof.Proof.Gen.KernelIdeal.Launch
import proofs.«143142_j66022237274283_1_alg».proof.Proof.Gen.ReferenceIdeal.Read
import Idealize.ShloMosaic.Lib.StableHlo.Run

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (W : Valuation τ sig (Elt Ideal))

/-! ## Before the first region -/

/-- The source list: the edge sources followed by one self loop per node. -/
theorem src_eq : after hostOps0 W (Proc.devRef .tc main_v3) = val_main_v3 (F := Ideal) (W (Proc.devRef .tc main_arg1)) := by
  after_results; rfl
/-- The target list. -/
theorem dst_eq : after hostOps0 W (Proc.devRef .tc main_v6) = val_main_v6 (F := Ideal) (W (Proc.devRef .tc main_arg1)) := by
  after_results; rfl
/-- The weights: the edge weights followed by a one per self loop. -/
theorem wts_eq : after hostOps0 W (Proc.devRef .tc main_v8) = val_main_v8 (F := Ideal) (W (Proc.devRef .tc main_arg2)) := by
  after_results; rfl
/-- Where the weighted degree is positive. -/
theorem pos_eq : after hostOps0 W (Proc.devRef .tc main_v13)
    = val_main_v14 (F := Ideal) (W (Proc.devRef .tc main_arg1)) (W (Proc.devRef .tc main_arg2)) := by
  after_results; rfl
/-- The inverse square root of the weighted degree. -/
theorem rsq_eq : after hostOps0 W (Proc.devRef .tc main_v14)
    = val_main_v15 (F := Ideal) (W (Proc.devRef .tc main_arg1)) (W (Proc.devRef .tc main_arg2)) := by
  after_results; rfl
/-- The zero the inverse square root is replaced by where the degree is not positive. -/
theorem zero_eq : after hostOps0 W (Proc.devRef .tc main_cst_2) = val_main_cst_2 (F := Ideal) := by
  after_results; rfl

/-- The inverse square root of the degree where it is positive, zero elsewhere (the jnp `where`, inlined: its typed
    references transport contents to and from the buffers' types, which is the identity). -/
theorem dinv_eq {x1 : (⟨Cert.ReferenceIdeal.S2x800000, .i32⟩ : BufTy).Contents (Elt Ideal)} {x2 : (⟨Cert.ReferenceIdeal.S800000, .f32⟩ : BufTy).Contents (Elt Ideal)}
    (hp : W (Proc.devRef .tc main_v13) = val_main_v14 (F := Ideal) x1 x2) (hr : W (Proc.devRef .tc main_v14) = val_main_v15 (F := Ideal) x1 x2)
    (hz : W (Proc.devRef .tc main_cst_2) = val_main_cst_2 (F := Ideal)) :
    after hostOps0_1 W (Proc.devRef .tc main_v15) = val_main_v16 (F := Ideal) x1 x2 := by
  after_results
  show select (W (Proc.devRef .tc main_v13)) (W (Proc.devRef .tc main_v14)) (broadcastInDim S50000 ![] bcast_S_S50000 (id (W (Proc.devRef .tc main_cst_2)))) = _
  rw [hp, hr, hz]
  rfl

set_option maxHeartbeats 4000000 in
/-- The edge coefficients: the inverse-root degree at the source, times the weight, times the inverse-root degree at the target. -/
theorem norm_eq {x1 : (⟨Cert.ReferenceIdeal.S2x800000, .i32⟩ : BufTy).Contents (Elt Ideal)} {x2 : (⟨Cert.ReferenceIdeal.S800000, .f32⟩ : BufTy).Contents (Elt Ideal)}
    (h3 : W (Proc.devRef .tc main_v3) = val_main_v3 (F := Ideal) x1) (h6 : W (Proc.devRef .tc main_v6) = val_main_v6 (F := Ideal) x1)
    (h8 : W (Proc.devRef .tc main_v8) = val_main_v8 (F := Ideal) x2) (hd : W (Proc.devRef .tc main_v15) = val_main_v16 (F := Ideal) x1 x2) :
    after hostOps0_2 W (Proc.devRef .tc main_v31) = val_main_v32 (F := Ideal) x1 x2 := by
  after_results_simp
  rw [h3, h6, h8, hd]
  rfl

/-! ## The four layers' message passing, and the bias rows -/

set_option maxHeartbeats 4000000 in
/-- Layer 1: the projected rows gathered at the sources, scaled by the coefficients, summed into the targets. -/
theorem agg1_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)}
    (h3 : W (Proc.devRef .tc main_v3) = val_main_v3 (F := Ideal) x1) (h6 : W (Proc.devRef .tc main_v6) = val_main_v6 (F := Ideal) x1)
    (hn : W (Proc.devRef .tc main_v31) = val_main_v32 (F := Ideal) x1 x2) (hh : W (Proc.devRef .tc main_v32) = val_main_v9 (F := Ideal) x0 x3) :
    after hostOps1 W (Proc.devRef .tc main_v45) = val_main_v45 (F := Ideal) x0 x1 x2 x3 := by
  after_results_simp
  rw [h3, h6, hn, hh]
  rfl

set_option maxHeartbeats 4000000 in
/-- Layer 2 (the reference recomputes the same coefficients; they are the same function of the edges). -/
theorem agg2_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)}
    (h3 : W (Proc.devRef .tc main_v3) = val_main_v3 (F := Ideal) x1) (h6 : W (Proc.devRef .tc main_v6) = val_main_v6 (F := Ideal) x1)
    (hn : W (Proc.devRef .tc main_v31) = val_main_v32 (F := Ideal) x1 x2) (hh : W (Proc.devRef .tc main_v48) = val_main_v50 (F := Ideal) x0 x1 x2 x3 x4 x5) :
    after hostOps3 W (Proc.devRef .tc main_v61) = val_main_v86 (F := Ideal) x0 x1 x2 x3 x4 x5 := by
  after_results_simp
  rw [h3, h6, hn, hh]
  rfl

set_option maxHeartbeats 4000000 in
/-- Layer 3. -/
theorem agg3_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)} {x6 : (⟨Cert.ReferenceIdeal.S128, .f32⟩ : BufTy).Contents (Elt Ideal)} {x7 : (⟨Cert.ReferenceIdeal.S128x256, .f32⟩ : BufTy).Contents (Elt Ideal)}
    (h3 : W (Proc.devRef .tc main_v3) = val_main_v3 (F := Ideal) x1) (h6 : W (Proc.devRef .tc main_v6) = val_main_v6 (F := Ideal) x1)
    (hn : W (Proc.devRef .tc main_v31) = val_main_v32 (F := Ideal) x1 x2) (hh : W (Proc.devRef .tc main_v64) = val_main_v91 (F := Ideal) x0 x1 x2 x3 x4 x5 x6 x7) :
    after hostOps5 W (Proc.devRef .tc main_v77) = val_main_v127 (F := Ideal) x0 x1 x2 x3 x4 x5 x6 x7 := by
  after_results_simp
  rw [h3, h6, hn, hh]
  rfl

set_option maxHeartbeats 4000000 in
/-- Layer 4. -/
theorem agg4_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)} {x6 : (⟨Cert.ReferenceIdeal.S128, .f32⟩ : BufTy).Contents (Elt Ideal)} {x7 : (⟨Cert.ReferenceIdeal.S128x256, .f32⟩ : BufTy).Contents (Elt Ideal)} {x8 : (⟨Cert.ReferenceIdeal.S256, .f32⟩ : BufTy).Contents (Elt Ideal)} {x9 : (⟨Cert.ReferenceIdeal.S256x256, .f32⟩ : BufTy).Contents (Elt Ideal)}
    (h3 : W (Proc.devRef .tc main_v3) = val_main_v3 (F := Ideal) x1) (h6 : W (Proc.devRef .tc main_v6) = val_main_v6 (F := Ideal) x1)
    (hn : W (Proc.devRef .tc main_v31) = val_main_v32 (F := Ideal) x1 x2) (hh : W (Proc.devRef .tc main_v80) = val_main_v132 (F := Ideal) x0 x1 x2 x3 x4 x5 x6 x7 x8 x9) :
    after hostOps7 W (Proc.devRef .tc main_v93) = val_main_v168 (F := Ideal) x0 x1 x2 x3 x4 x5 x6 x7 x8 x9 := by
  after_results_simp
  rw [h3, h6, hn, hh]
  rfl

/-- A layer's bias, re-laid as one row. -/
theorem bias1_eq : after hostOps1 W (Proc.devRef .tc main_v46) = shapeCast S1x64 (W (Proc.devRef .tc main_arg4)) shapeCasts_S64_S1x64 := by
  after_results; rfl
theorem bias2_eq : after hostOps3 W (Proc.devRef .tc main_v62) = shapeCast S1x128 (W (Proc.devRef .tc main_arg6)) shapeCasts_S128_S1x128 := by
  after_results; rfl
theorem bias3_eq : after hostOps5 W (Proc.devRef .tc main_v78) = shapeCast S1x256 (W (Proc.devRef .tc main_arg8)) shapeCasts_S256_S1x256 := by
  after_results; rfl
theorem bias4_eq : after hostOps7 W (Proc.devRef .tc main_v94) = shapeCast S1x256 (W (Proc.devRef .tc main_arg10)) shapeCasts_S256_S1x256 := by
  after_results; rfl
/-- The final layer's one bias entry, re-laid as a [1, 1] array. -/
theorem bias5_eq : after hostOps8 W (Proc.devRef .tc main_v96) = shapeCast S1x1 (W (Proc.devRef .tc main_arg12)) shapeCasts_S1_S1x1 := by
  after_results; rfl

end Cert.KernelIdeal.Stages

end
-- ==== Proof.Prod0.lean ====
/-
  Region 0 of the idealized kernel: the matrix product of a [50000, 128] array `x` with a [128, 64] array `w`, computed in
  ten row blocks of 5000. On the extended reals the rounding of both factors to bf16 is the identity and the product into
  a zero accumulator is the plain sum, so a block's stored value at (p, q) is the sum over k of x_block[p, k] · w[k, q];
  the block of `x` at point t is rows 5000 t … 5000 t + 4999, `w` is read whole, and the ten output blocks tile the
  rows. Hence the result array is, entry by entry, sum over k of x[r, k] · w[k, q] of the arrays the region was entered with.
-/
import proofs.«143142_j66022237274283_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.Prod0

variable (V : (c : Dev nD) → (b : Ref sig .tc) → Buf (Elt Ideal) ((c : Thread nD τ).loc b))

theorem zeroOff : (![0, 0] : Fin 2 → Nat) = fun _ => 0 := funext fun a => by fin_cases a <;> rfl

/-- Entry (r, q) of the product: the sum over the 128 contracted positions of x[r, k] · w[k, q]. -/
def prod (x : S50000x128.Idx → EReal) (w : S128x64.Idx → EReal) : S50000x64.Idx → EReal :=
  fun i => ∑ k : Fin 128, x (ix2 (⟨(i 0).val, (i 0).isLt⟩ : Fin 50000) k) * w (ix2 k (⟨(i 1).val, (i 1).isLt⟩ : Fin 64))

/-- The product's operand indices at output index `i` and contraction index `q`, coordinate by coordinate. -/
theorem lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix unit's product into the zero accumulator, at entry (p, q): the sum over its one contracted axis,
    re-indexed by 0 … 127. -/
theorem mm_at (y0 : FVec Ideal S5000x128 .bf16) (y1 : FVec Ideal S128x64 .bf16) (p : Fin 5000) (q : Fin 64) :
    matmul dot_S5000x128_S128x64_S5000x64_1_0_0_1_n_n none y0 y1 (constant S5000x64 .f32 0x00000000#32) (ix2 p q) = ∑ k : Fin 128, y0 (ix2 p k) * y1 (ix2 k q) := by
  show FloatOps.matmul dot_S5000x128_S128x64_S5000x64_1_0_0_1_n_n none y0 y1 (constant S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact lhs0 _ _
      | ⟨1, _⟩ => exact (lhs1 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (rhs0 _ _).trans hk
      | ⟨1, _⟩ => exact rhs1 _ _)
  rw [el, er]

/-- The body's stored value at entry (p, q) of a block: the two roundings to bf16 are the identity on the extended
    reals, so it is the product's sum over the loaded blocks themselves. -/
theorem pay_ix (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  try simp only [shapeCast_self]
  exact mm_at (truncf .bf16 x0 bitsLt_bf16_f32) (truncf .bf16 x1 bitsLt_bf16_f32) p q

/-- The same at any index of the block. -/
theorem pay_at (x0 : Vec Ideal S5000x128 .f32) (x1 : Vec Ideal S128x64 .f32) (j : S5000x64.Idx) :
    k0_pay1 x0 x1 j = ∑ k : Fin 128, x0 (ix2 (⟨(j 0).val, (j 0).isLt⟩ : Fin 5000) k) * x1 (ix2 k (⟨(j 1).val, (j 1).isLt⟩ : Fin 64)) := by
  obtain ⟨p, q, rfl⟩ : ∃ (p : Fin 5000) (q : Fin 64), j = ix2 p q := ⟨j 0, j 1, eq_ix2 j⟩
  exact pay_ix x0 x1 p q

/-- The printed index maps over the ten points: the block of `x` and the output block move together down the rows
    (block t at point t), `w`'s one block stays. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of `prod` of the two arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero zeroOff]
  simp only [View.ld_unit_zero (S := S5000x128) zeroOff, View.ld_unit_zero (S := S128x64) zeroOff]
  obtain ⟨e0, e1, e2, e3, e4, e5⟩ := idx_facts t
  funext j
  have hj0 : (j 0).val < 5000 := (j 0).isLt
  have hj1 : (j 1).val < 64 := (j 1).isLt
  show k0_pay1 (iblk0 V c 0 t) (iblk0 V c 1 t) j = prod (V c main_arg0) (V c main_arg3) (((cfg0.win 2).blk t).view.emb j)
  refine (pay_at (iblk0 V c 0 t) (iblk0 V c 1 t) j).trans ?_
  unfold prod
  refine Finset.sum_congr rfl fun k _ => ?_
  have h0 : ((cfg0.win 0).blk t).view.emb (ix2 (⟨(j 0).val, hj0⟩ : Fin 5000) k)
      = ix2 (⟨((((cfg0.win 2).blk t).view.emb j) 0).val, ((((cfg0.win 2).blk t).view.emb j) 0).isLt⟩ : Fin 50000) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (⟨(j 1).val, hj1⟩ : Fin 64))
      = ix2 k (⟨((((cfg0.win 2).blk t).view.emb j) 1).val, ((((cfg0.win 2).blk t).view.emb j) 1).isLt⟩ : Fin 64) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  refine congr (congrArg HMul.hMul ?_) ?_
  · show V c main_arg0 (((cfg0.win 0).blk t).view.emb (ix2 (⟨(j 0).val, hj0⟩ : Fin 5000) k)) = _
    rw [h0]
  · show V c main_arg3 (((cfg0.win 1).blk t).view.emb (ix2 k (⟨(j 1).val, hj1⟩ : Fin 64))) = _
    rw [h1]

/-- An index of the array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every entry is in some point's block: row r is in block r / 5000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  have ht : (i 0).val / 5000 < grid0.N := by rw [hN]; omega
  obtain ⟨e0, e1, e2, e3, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e4]; omega

/-- The result array after the region: the product of the two arrays the region was entered with. -/
theorem final (c : Dev nD) : (dat0 V c).arrAt 2 cfg0.N = prod (V c main_arg0) (V c main_arg3) :=
  (dat0 V c).arrAt_eq_of_cover 2 _ (fun t _ => flushed_eq V c t) cover

end Cert.KernelIdeal.Prod0

end
-- ==== Proof.Act1.lean ====
/-
  Region 1 of the idealized kernel: `max (x + b) 0` over a [50000, 64] array `x` and a [1, 64] row `b`, computed in
  ten row blocks of 5000. Each block's stored value is, entry by entry, `max (x[r, q] + b[0, q]) 0` of the block of `x`
  that sits at the same rows; the ten blocks tile the rows (the block that holds row r is r / 5000), so the result array is
  that one function of the two arrays the region was entered with.
-/
import proofs.«143142_j66022237274283_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.Act1

variable (V : (c : Dev nD) → (b : Ref sig .tc) → Buf (Elt Ideal) ((c : Thread nD τ).loc b))

theorem zeroOff : (![0, 0] : Fin 2 → Nat) = fun _ => 0 := funext fun a => by fin_cases a <;> rfl

/-- A sum of two extended reals, not below zero. -/
def clampSum (a b : EReal) : EReal := max (a + b) (Ideal.ofBits .f32 0x00000000#32)

/-- Entry (r, q) of the result: the entry of `x` plus the bias row's entry of the same column, not below zero. -/
def act (x : S50000x64.Idx → EReal) (b : S1x64.Idx → EReal) : S50000x64.Idx → EReal :=
  fun i => clampSum (x i) (b (ix2 (0 : Fin 1) (⟨(i 1).val, (i 1).isLt⟩ : Fin 64)))

/-- The body's stored value at entry (p, q) of a block: the identity casts dropped, the row broadcast read at its column. -/
theorem pay_at (x0 : Vec Ideal S5000x64 .f32) (x1 : Vec Ideal S1x64 .f32) (p : Fin 5000) (q : Fin 64) :
    k1_pay1 x0 x1 (ix2 p q) = clampSum (x0 (ix2 p q)) (x1 (ix2 (0 : Fin 1) q)) := by
  unfold k1_pay1
  simp only [shapeCast_self]
  show max (x0 (ix2 p q) + broadcastTo S5000x64 x1 broadcasts_S1x64_S5000x64 (ix2 p q)) _ = _
  rw [broadcastTo_1b_ab_apply]
  rfl

/-- The printed index maps over the ten points: the input block of `x` and the output block move together down the
    rows (block t at point t), the bias row's one block stays. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What point `t` writes back is block `t` of `act` of the two arrays as the region finds them. -/
theorem flushed_eq (c : Dev nD) (t : Fin cfg1.N) :
    (dat1 V c).flushed 2 t = ((cfg1.win 2).blk t).view.read (Elt Ideal) (act (V c main_v45) (V c main_v46)) := by
  show (cfg1.win 2).cut (grid1.coords t) ((dat1 V c).after 2 t) = _
  rw [after1_2]
  unfold out1_2
  rw [View.canon_unit_zero zeroOff]
  simp only [View.ld_unit_zero (S := S5000x64) zeroOff, View.ld_unit_zero (S := S1x64) zeroOff]
  obtain ⟨e0, e1, e2, e3, e4, e5⟩ := idx_facts t
  funext j
  have hj0 : (j 0).val < 5000 := (j 0).isLt
  have hj1 : (j 1).val < 64 := (j 1).isLt
  show k1_pay1 (iblk1 V c 0 t) (iblk1 V c 1 t) (ix2 (⟨(j 0).val, hj0⟩ : Fin 5000) (⟨(j 1).val, hj1⟩ : Fin 64))
    = act (V c main_v45) (V c main_v46) (((cfg1.win 2).blk t).view.emb j)
  refine (pay_at (iblk1 V c 0 t) (iblk1 V c 1 t) ⟨(j 0).val, hj0⟩ ⟨(j 1).val, hj1⟩).trans ?_
  show clampSum (V c main_v45 (((cfg1.win 0).blk t).view.emb (ix2 (⟨(j 0).val, hj0⟩ : Fin 5000) (⟨(j 1).val, hj1⟩ : Fin 64))))
        (V c main_v46 (((cfg1.win 1).blk t).view.emb (ix2 (0 : Fin 1) (⟨(j 1).val, hj1⟩ : Fin 64))))
    = clampSum (V c main_v45 (((cfg1.win 2).blk t).view.emb j))
        (V c main_v46 (ix2 (0 : Fin 1) (⟨((((cfg1.win 2).blk t).view.emb j) 1).val, ((((cfg1.win 2).blk t).view.emb j) 1).isLt⟩ : Fin 64)))
  have h0 : ((cfg1.win 0).blk t).view.emb (ix2 (⟨(j 0).val, hj0⟩ : Fin 5000) (⟨(j 1).val, hj1⟩ : Fin 64)) = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (0 : Fin 1) (⟨(j 1).val, hj1⟩ : Fin 64))
      = ix2 (0 : Fin 1) (⟨((((cfg1.win 2).blk t).view.emb j) 1).val, ((((cfg1.win 2).blk t).view.emb j) 1).isLt⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- An index of the array is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Every entry is in some point's block: row r is in block r / 5000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 10 := N_1
  have ht : (i 0).val / 5000 < grid1.N := by rw [hN]; omega
  obtain ⟨e0, e1, e2, e3, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e4]; omega

/-- The result array after the region: `act` of the two arrays the region was entered with. -/
theorem final (c : Dev nD) : (dat1 V c).arrAt 2 cfg1.N = act (V c main_v45) (V c main_v46) :=
  (dat1 V c).arrAt_eq_of_cover 2 _ (fun t _ => flushed_eq V c t) cover

end Cert.KernelIdeal.Act1

end
-- ==== Proof.Prod2.lean ====
/-
  Region 2 of the idealized kernel: the matrix product of a [50000, 64] array `x` with a [64, 128] array `w`, computed in
  ten row blocks of 5000. On the extended reals the rounding of both factors to bf16 is the identity and the product into
  a zero accumulator is the plain sum, so a block's stored value at (p, q) is the sum over k of x_block[p, k] · w[k, q];
  the block of `x` at point t is rows 5000 t … 5000 t + 4999, `w` is read whole, and the ten output blocks tile the
  rows. Hence the result array is, entry by entry, sum over k of x[r, k] · w[k, q] of the arrays the region was entered with.
-/
import proofs.«143142_j66022237274283_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.Prod2

variable (V : (c : Dev nD) → (b : Ref sig .tc) → Buf (Elt Ideal) ((c : Thread nD τ).loc b))

theorem zeroOff : (![0, 0] : Fin 2 → Nat) = fun _ => 0 := funext fun a => by fin_cases a <;> rfl

/-- Entry (r, q) of the product: the sum over the 64 contracted positions of x[r, k] · w[k, q]. -/
def prod (x : S50000x64.Idx → EReal) (w : S64x128.Idx → EReal) : S50000x128.Idx → EReal :=
  fun i => ∑ k : Fin 64, x (ix2 (⟨(i 0).val, (i 0).isLt⟩ : Fin 50000) k) * w (ix2 k (⟨(i 1).val, (i 1).isLt⟩ : Fin 128))

/-- The product's operand indices at output index `i` and contraction index `q`, coordinate by coordinate. -/
theorem lhs0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem rhs0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem rhs1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The matrix unit's product into the zero accumulator, at entry (p, q): the sum over its one contracted axis,
    re-indexed by 0 … 63. -/
theorem mm_at (y0 : FVec Ideal S5000x64 .bf16) (y1 : FVec Ideal S64x128 .bf16) (p : Fin 5000) (q : Fin 128) :
    matmul dot_S5000x64_S64x128_S5000x128_1_0_0_1_n_n none y0 y1 (constant S5000x128 .f32 0x00000000#32) (ix2 p q) = ∑ k : Fin 64, y0 (ix2 p k) * y1 (ix2 k q) := by
  show FloatOps.matmul dot_S5000x64_S64x128_S5000x128_1_0_0_1_n_n none y0 y1 (constant S5000x128 .f32 0x00000000#32) (ix2 p q) = _
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k :=
    funext fun a => Fin.ext (by
      match a with
      | ⟨0, _⟩ => exact lhs0 _ _
      | ⟨1, _⟩ => exact (lhs1 _ _).trans hk)
  have er : dot_S5000x64_S64x128_S5000x128_1_0_0_1_n_n.rhsIdx (ix2 p q) ((contrEquiv1 dot_S5000x64_S64x128_S5000x128_1_0_0_1_n_n 64 rfl rfl).symm k) = ix2 k q :=
    funext fun a => Fin.ext (by
      match a with
      | ⟨0, _⟩ => exact (rhs0 _ _).trans hk
      | ⟨1, _⟩ => exact rhs1 _ _)
  rw [el, er]

/-- The body's stored value at entry (p, q) of a block: the two roundings to bf16 are the identity on the extended
    reals, so it is the product's sum over the loaded blocks themselves. -/
theorem pay_ix (x0 : Vec Ideal S5000x64 .f32) (x1 : Vec Ideal S64x128 .f32) (p : Fin 5000) (q : Fin 128) :
    k2_pay1 x0 x1 (ix2 p q) = ∑ k : Fin 64, x0 (ix2 p k) * x1 (ix2 k q) := by
  unfold k2_pay1
  try simp only [shapeCast_self]
  exact mm_at (truncf .bf16 x0 bitsLt_bf16_f32) (truncf .bf16 x1 bitsLt_bf16_f32) p q

/-- The same at any index of the block. -/
theorem pay_at (x0 : Vec Ideal S5000x64 .f32) (x1 : Vec Ideal S64x128 .f32) (j : S5000x128.Idx) :
    k2_pay1 x0 x1 j = ∑ k : Fin 64, x0 (ix2 (⟨(j 0).val, (j 0).isLt⟩ : Fin 5000) k) * x1 (ix2 k (⟨(j 1).val, (j 1).isLt⟩ : Fin 128)) := by
  obtain ⟨p, q, rfl⟩ : ∃ (p : Fin 5000) (q : Fin 128), j = ix2 p q := ⟨j 0, j 1, eq_ix2 j⟩
  exact pay_ix x0 x1 p q

/-- The printed index maps over the ten points: the block of `x` and the output block move together down the rows
    (block t at point t), `w`'s one block stays. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What point `t` writes back is block `t` of `prod` of the two arrays as the region finds them. -/
theorem flushed_eq (c : Dev nD) (t : Fin cfg2.N) :
    (dat2 V c).flushed 2 t = ((cfg2.win 2).blk t).view.read (Elt Ideal) (prod (V c main_v47) (V c main_arg5)) := by
  show (cfg2.win 2).cut (grid2.coords t) ((dat2 V c).after 2 t) = _
  rw [after2_2]
  unfold out2_2
  rw [View.canon_unit_zero zeroOff]
  simp only [View.ld_unit_zero (S := S5000x64) zeroOff, View.ld_unit_zero (S := S64x128) zeroOff]
  obtain ⟨e0, e1, e2, e3, e4, e5⟩ := idx_facts t
  funext j
  have hj0 : (j 0).val < 5000 := (j 0).isLt
  have hj1 : (j 1).val < 128 := (j 1).isLt
  show k2_pay1 (iblk2 V c 0 t) (iblk2 V c 1 t) j = prod (V c main_v47) (V c main_arg5) (((cfg2.win 2).blk t).view.emb j)
  refine (pay_at (iblk2 V c 0 t) (iblk2 V c 1 t) j).trans ?_
  unfold prod
  refine Finset.sum_congr rfl fun k _ => ?_
  have h0 : ((cfg2.win 0).blk t).view.emb (ix2 (⟨(j 0).val, hj0⟩ : Fin 5000) k)
      = ix2 (⟨((((cfg2.win 2).blk t).view.emb j) 0).val, ((((cfg2.win 2).blk t).view.emb j) 0).isLt⟩ : Fin 50000) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (ix2 k (⟨(j 1).val, hj1⟩ : Fin 128))
      = ix2 k (⟨((((cfg2.win 2).blk t).view.emb j) 1).val, ((((cfg2.win 2).blk t).view.emb j) 1).isLt⟩ : Fin 128) := by
    funext a; apply Fin.ext
    match a with
    | ⟨0, _⟩ => show win2_1.index t (0 : Fin 2) * 64 + 1 * k.val = k.val; omega
    | ⟨1, _⟩ => show win2_1.index t (1 : Fin 2) * 128 + 1 * (j 1).val = win2_2.index t (1 : Fin 2) * 128 + 1 * (j 1).val; omega
  refine congr (congrArg HMul.hMul ?_) ?_
  · show V c main_v47 (((cfg2.win 0).blk t).view.emb (ix2 (⟨(j 0).val, hj0⟩ : Fin 5000) k)) = _
    rw [h0]
  · show V c main_arg5 (((cfg2.win 1).blk t).view.emb (ix2 k (⟨(j 1).val, hj1⟩ : Fin 128))) = _
    rw [h1]

/-- An index of the array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every entry is in some point's block: row r is in block r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  have ht : (i 0).val / 5000 < grid2.N := by rw [hN]; omega
  obtain ⟨e0, e1, e2, e3, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e4]; omega

/-- The result array after the region: the product of the two arrays the region was entered with. -/
theorem final (c : Dev nD) : (dat2 V c).arrAt 2 cfg2.N = prod (V c main_v47) (V c main_arg5) :=
  (dat2 V c).arrAt_eq_of_cover 2 _ (fun t _ => flushed_eq V c t) cover

end Cert.KernelIdeal.Prod2

end
-- ==== Proof.Act3.lean ====
/-
  Region 3 of the idealized kernel: `max (x + b) 0` over a [50000, 128] array `x` and a [1, 128] row `b`, computed in
  ten row blocks of 5000. Each block's stored value is, entry by entry, `max (x[r, q] + b[0, q]) 0` of the block of `x`
  that sits at the same rows; the ten blocks tile the rows (the block that holds row r is r / 5000), so the result array is
  that one function of the two arrays the region was entered with.
-/
import proofs.«143142_j66022237274283_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.Act3

variable (V : (c : Dev nD) → (b : Ref sig .tc) → Buf (Elt Ideal) ((c : Thread nD τ).loc b))

theorem zeroOff : (![0, 0] : Fin 2 → Nat) = fun _ => 0 := funext fun a => by fin_cases a <;> rfl

/-- A sum of two extended reals, not below zero. -/
def clampSum (a b : EReal) : EReal := max (a + b) (Ideal.ofBits .f32 0x00000000#32)

/-- Entry (r, q) of the result: the entry of `x` plus the bias row's entry of the same column, not below zero. -/
def act (x : S50000x128.Idx → EReal) (b : S1x128.Idx → EReal) : S50000x128.Idx → EReal :=
  fun i => clampSum (x i) (b (ix2 (0 : Fin 1) (⟨(i 1).val, (i 1).isLt⟩ : Fin 128)))

/-- The body's stored value at entry (p, q) of a block: the identity casts dropped, the row broadcast read at its column. -/
theorem pay_at (x0 : Vec Ideal S5000x128 .f32) (x1 : Vec Ideal S1x128 .f32) (p : Fin 5000) (q : Fin 128) :
    k3_pay1 x0 x1 (ix2 p q) = clampSum (x0 (ix2 p q)) (x1 (ix2 (0 : Fin 1) q)) := by
  unfold k3_pay1
  simp only [shapeCast_self]
  show max (x0 (ix2 p q) + broadcastTo S5000x128 x1 broadcasts_S1x128_S5000x128 (ix2 p q)) _ = _
  rw [broadcastTo_1b_ab_apply]
  rfl

/-- The printed index maps over the ten points: the input block of `x` and the output block move together down the
    rows (block t at point t), the bias row's one block stays. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) = t.val :=
  (by decide +kernel : ∀ t : Fin grid3.N, _)

/-- What point `t` writes back is block `t` of `act` of the two arrays as the region finds them. -/
theorem flushed_eq (c : Dev nD) (t : Fin cfg3.N) :
    (dat3 V c).flushed 2 t = ((cfg3.win 2).blk t).view.read (Elt Ideal) (act (V c main_v61) (V c main_v62)) := by
  show (cfg3.win 2).cut (grid3.coords t) ((dat3 V c).after 2 t) = _
  rw [after3_2]
  unfold out3_2
  rw [View.canon_unit_zero zeroOff]
  simp only [View.ld_unit_zero (S := S5000x128) zeroOff, View.ld_unit_zero (S := S1x128) zeroOff]
  obtain ⟨e0, e1, e2, e3, e4, e5⟩ := idx_facts t
  funext j
  have hj0 : (j 0).val < 5000 := (j 0).isLt
  have hj1 : (j 1).val < 128 := (j 1).isLt
  show k3_pay1 (iblk3 V c 0 t) (iblk3 V c 1 t) (ix2 (⟨(j 0).val, hj0⟩ : Fin 5000) (⟨(j 1).val, hj1⟩ : Fin 128))
    = act (V c main_v61) (V c main_v62) (((cfg3.win 2).blk t).view.emb j)
  refine (pay_at (iblk3 V c 0 t) (iblk3 V c 1 t) ⟨(j 0).val, hj0⟩ ⟨(j 1).val, hj1⟩).trans ?_
  show clampSum (V c main_v61 (((cfg3.win 0).blk t).view.emb (ix2 (⟨(j 0).val, hj0⟩ : Fin 5000) (⟨(j 1).val, hj1⟩ : Fin 128))))
        (V c main_v62 (((cfg3.win 1).blk t).view.emb (ix2 (0 : Fin 1) (⟨(j 1).val, hj1⟩ : Fin 128))))
    = clampSum (V c main_v61 (((cfg3.win 2).blk t).view.emb j))
        (V c main_v62 (ix2 (0 : Fin 1) (⟨((((cfg3.win 2).blk t).view.emb j) 1).val, ((((cfg3.win 2).blk t).view.emb j) 1).isLt⟩ : Fin 128)))
  have h0 : ((cfg3.win 0).blk t).view.emb (ix2 (⟨(j 0).val, hj0⟩ : Fin 5000) (⟨(j 1).val, hj1⟩ : Fin 128)) = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (⟨(j 1).val, hj1⟩ : Fin 128))
      = ix2 (0 : Fin 1) (⟨((((cfg3.win 2).blk t).view.emb j) 1).val, ((((cfg3.win 2).blk t).view.emb j) 1).isLt⟩ : Fin 128) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [h0, h1]

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every entry is in some point's block: row r is in block r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  have ht : (i 0).val / 5000 < grid3.N := by rw [hN]; omega
  obtain ⟨e0, e1, e2, e3, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e4]; omega

/-- The result array after the region: `act` of the two arrays the region was entered with. -/
theorem final (c : Dev nD) : (dat3 V c).arrAt 2 cfg3.N = act (V c main_v61) (V c main_v62) :=
  (dat3 V c).arrAt_eq_of_cover 2 _ (fun t _ => flushed_eq V c t) cover

end Cert.KernelIdeal.Act3

end
-- ==== Proof.Prod4.lean ====
/-
  Region 4 of the idealized kernel: the matrix product of a [50000, 128] array `x` with a [128, 256] array `w`, computed in
  ten row blocks of 5000. On the extended reals the rounding of both factors to bf16 is the identity and the product into
  a zero accumulator is the plain sum, so a block's stored value at (p, q) is the sum over k of x_block[p, k] · w[k, q];
  the block of `x` at point t is rows 5000 t … 5000 t + 4999, `w` is read whole, and the ten output blocks tile the
  rows. Hence the result array is, entry by entry, sum over k of x[r, k] · w[k, q] of the arrays the region was entered with.
-/
import proofs.«143142_j66022237274283_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.Prod4

variable (V : (c : Dev nD) → (b : Ref sig .tc) → Buf (Elt Ideal) ((c : Thread nD τ).loc b))

theorem zeroOff : (![0, 0] : Fin 2 → Nat) = fun _ => 0 := funext fun a => by fin_cases a <;> rfl

/-- Entry (r, q) of the product: the sum over the 128 contracted positions of x[r, k] · w[k, q]. -/
def prod (x : S50000x128.Idx → EReal) (w : S128x256.Idx → EReal) : S50000x256.Idx → EReal :=
  fun i => ∑ k : Fin 128, x (ix2 (⟨(i 0).val, (i 0).isLt⟩ : Fin 50000) k) * w (ix2 k (⟨(i 1).val, (i 1).isLt⟩ : Fin 256))

/-- The product's operand indices at output index `i` and contraction index `q`, coordinate by coordinate. -/
theorem lhs0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs1 (i : S5000x256.Idx) (q : dot_S5000x128_S128x256_S5000x256_1_0_0_1_n_n.contr.Idx) : (dot_S5000x128_S128x256_S5000x256_1_0_0_1_n_n.lhsIdx i q 1).val = (q ⟨0, by decide⟩).val :=
  dot_S5000x128_S128x256_S5000x256_1_0_0_1_n_n.lhsIdx_val_of_single rfl i q
theorem rhs0 (i : S5000x256.Idx) (q : dot_S5000x128_S128x256_S5000x256_1_0_0_1_n_n.contr.Idx) : (dot_S5000x128_S128x256_S5000x256_1_0_0_1_n_n.rhsIdx i q 0).val = (q ⟨0, by decide⟩).val :=
  dot_S5000x128_S128x256_S5000x256_1_0_0_1_n_n.rhsIdx_val_of_single rfl i q
theorem rhs1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The matrix unit's product into the zero accumulator, at entry (p, q): the sum over its one contracted axis,
    re-indexed by 0 … 127. -/
theorem mm_at (y0 : FVec Ideal S5000x128 .bf16) (y1 : FVec Ideal S128x256 .bf16) (p : Fin 5000) (q : Fin 256) :
    matmul dot_S5000x128_S128x256_S5000x256_1_0_0_1_n_n none y0 y1 (constant S5000x256 .f32 0x00000000#32) (ix2 p q) = ∑ k : Fin 128, y0 (ix2 p k) * y1 (ix2 k q) := by
  show FloatOps.matmul dot_S5000x128_S128x256_S5000x256_1_0_0_1_n_n none y0 y1 (constant S5000x256 .f32 0x00000000#32) (ix2 p q) = _
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k :=
    funext fun a => Fin.ext (by
      match a with
      | ⟨0, _⟩ => exact lhs0 _ _
      | ⟨1, _⟩ => exact (lhs1 _ _).trans hk)
  have er : dot_S5000x128_S128x256_S5000x256_1_0_0_1_n_n.rhsIdx (ix2 p q) ((contrEquiv1 dot_S5000x128_S128x256_S5000x256_1_0_0_1_n_n 128 rfl rfl).symm k) = ix2 k q :=
    funext fun a => Fin.ext (by
      match a with
      | ⟨0, _⟩ => exact (rhs0 _ _).trans hk
      | ⟨1, _⟩ => exact rhs1 _ _)
  rw [el, er]

/-- The body's stored value at entry (p, q) of a block: the two roundings to bf16 are the identity on the extended
    reals, so it is the product's sum over the loaded blocks themselves. -/
theorem pay_ix (x0 : Vec Ideal S5000x128 .f32) (x1 : Vec Ideal S128x256 .f32) (p : Fin 5000) (q : Fin 256) :
    k4_pay1 x0 x1 (ix2 p q) = ∑ k : Fin 128, x0 (ix2 p k) * x1 (ix2 k q) := by
  unfold k4_pay1
  try simp only [shapeCast_self]
  exact mm_at (truncf .bf16 x0 bitsLt_bf16_f32) (truncf .bf16 x1 bitsLt_bf16_f32) p q

/-- The same at any index of the block. -/
theorem pay_at (x0 : Vec Ideal S5000x128 .f32) (x1 : Vec Ideal S128x256 .f32) (j : S5000x256.Idx) :
    k4_pay1 x0 x1 j = ∑ k : Fin 128, x0 (ix2 (⟨(j 0).val, (j 0).isLt⟩ : Fin 5000) k) * x1 (ix2 k (⟨(j 1).val, (j 1).isLt⟩ : Fin 256)) := by
  obtain ⟨p, q, rfl⟩ : ∃ (p : Fin 5000) (q : Fin 256), j = ix2 p q := ⟨j 0, j 1, eq_ix2 j⟩
  exact pay_ix x0 x1 p q

/-- The printed index maps over the ten points: the block of `x` and the output block move together down the rows
    (block t at point t), `w`'s one block stays. -/
theorem idx_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

/-- What point `t` writes back is block `t` of `prod` of the two arrays as the region finds them. -/
theorem flushed_eq (c : Dev nD) (t : Fin cfg4.N) :
    (dat4 V c).flushed 2 t = ((cfg4.win 2).blk t).view.read (Elt Ideal) (prod (V c main_v63) (V c main_arg7)) := by
  show (cfg4.win 2).cut (grid4.coords t) ((dat4 V c).after 2 t) = _
  rw [after4_2]
  unfold out4_2
  rw [View.canon_unit_zero zeroOff]
  simp only [View.ld_unit_zero (S := S5000x128) zeroOff, View.ld_unit_zero (S := S128x256) zeroOff]
  obtain ⟨e0, e1, e2, e3, e4, e5⟩ := idx_facts t
  funext j
  have hj0 : (j 0).val < 5000 := (j 0).isLt
  have hj1 : (j 1).val < 256 := (j 1).isLt
  show k4_pay1 (iblk4 V c 0 t) (iblk4 V c 1 t) j = prod (V c main_v63) (V c main_arg7) (((cfg4.win 2).blk t).view.emb j)
  refine (pay_at (iblk4 V c 0 t) (iblk4 V c 1 t) j).trans ?_
  unfold prod
  refine Finset.sum_congr rfl fun k _ => ?_
  have h0 : ((cfg4.win 0).blk t).view.emb (ix2 (⟨(j 0).val, hj0⟩ : Fin 5000) k)
      = ix2 (⟨((((cfg4.win 2).blk t).view.emb j) 0).val, ((((cfg4.win 2).blk t).view.emb j) 0).isLt⟩ : Fin 50000) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (ix2 k (⟨(j 1).val, hj1⟩ : Fin 256))
      = ix2 k (⟨((((cfg4.win 2).blk t).view.emb j) 1).val, ((((cfg4.win 2).blk t).view.emb j) 1).isLt⟩ : Fin 256) := by
    funext a; apply Fin.ext
    match a with
    | ⟨0, _⟩ => show win4_1.index t (0 : Fin 2) * 128 + 1 * k.val = k.val; omega
    | ⟨1, _⟩ => show win4_1.index t (1 : Fin 2) * 256 + 1 * (j 1).val = win4_2.index t (1 : Fin 2) * 256 + 1 * (j 1).val; omega
  refine congr (congrArg HMul.hMul ?_) ?_
  · show V c main_v63 (((cfg4.win 0).blk t).view.emb (ix2 (⟨(j 0).val, hj0⟩ : Fin 5000) k)) = _
    rw [h0]
  · show V c main_arg7 (((cfg4.win 1).blk t).view.emb (ix2 k (⟨(j 1).val, hj1⟩ : Fin 256))) = _
    rw [h1]

/-- An index of the array is in point `t`'s block iff each coordinate is in the block's range on its axis. -/
theorem mem_blk (t : Fin cfg4.N) (i : S50000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v64).slice (win4_2.rect t)).set ↔ _
  rw [View.set_slice_whole, Rect.mem_set_unit]
  exact Iff.rfl

/-- Every entry is in some point's block: row r is in block r / 5000. -/
theorem cover (i : S50000x256.Idx) : ∃ t : Fin cfg4.N, (cfg4.win 2).flush t = true ∧ i ∈ ((cfg4.win 2).blk t).view.set := by
  have hi0 : (i 0).val < 50000 := (i 0).isLt
  have hi1 : (i 1).val < 256 := (i 1).isLt
  have hN : grid4.N = 10 := N_4
  have ht : (i 0).val / 5000 < grid4.N := by rw [hN]; omega
  obtain ⟨e0, e1, e2, e3, e4, e5⟩ := idx_facts ⟨(i 0).val / 5000, ht⟩
  refine ⟨⟨(i 0).val / 5000, ht⟩, flush4_2 _, ?_⟩
  rw [mem_blk]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win4_2.index ⟨(i 0).val / 5000, ht⟩ (1 : Fin 2) * 256 ≤ (i 1).val ∧ (i 1).val < win4_2.index ⟨(i 0).val / 5000, ht⟩ (1 : Fin 2) * 256 + 256
    rw [e4]; omega

/-- The result array after the region: the product of the two arrays the region was entered with. -/
theorem final (c : Dev nD) : (dat4 V c).arrAt 2 cfg4.N = prod (V c main_v63) (V c main_arg7) :=
  (dat4 V c).arrAt_eq_of_cover 2 _ (fun t _ => flushed_eq V c t) cover

end Cert.KernelIdeal.Prod4

end
-- ==== Proof.Act5.lean ====
/-
  Region 5 of the idealized kernel: `max (x + b) 0` over a [50000, 256] array `x` and a [1, 256] row `b`, computed in
  ten row blocks of 5000. Each block's stored value is, entry by entry, `max (x[r, q] + b[0, q]) 0` of the block of `x`
  that sits at the same rows; the ten blocks tile the rows (the block that holds row r is r / 5000), so the result array is
  that one function of the two arrays the region was entered with.
-/
import proofs.«143142_j66022237274283_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.Act5

variable (V : (c : Dev nD) → (b : Ref sig .tc) → Buf (Elt Ideal) ((c : Thread nD τ).loc b))

theorem zeroOff : (![0, 0] : Fin 2 → Nat) = fun _ => 0 := funext fun a => by fin_cases a <;> rfl

/-- A sum of two extended reals, not below zero. -/
def clampSum (a b : EReal) : EReal := max (a + b) (Ideal.ofBits .f32 0x00000000#32)

/-- Entry (r, q) of the result: the entry of `x` plus the bias row's entry of the same column, not below zero. -/
def act (x : S50000x256.Idx → EReal) (b : S1x256.Idx → EReal) : S50000x256.Idx → EReal :=
  fun i => clampSum (x i) (b (ix2 (0 : Fin 1) (⟨(i 1).val, (i 1).isLt⟩ : Fin 256)))

/-- The body's stored value at entry (p, q) of a block: the identity casts dropped, the row broadcast read at its column. -/
theorem pay_at (x0 : Vec Ideal S5000x256 .f32) (x1 : Vec Ideal S1x256 .f32) (p : Fin 5000) (q : Fin 256) :
    k5_pay1 x0 x1 (ix2 p q) = clampSum (x0 (ix2 p q)) (x1 (ix2 (0 : Fin 1) q)) := by
  unfold k5_pay1
  simp only [shapeCast_self]
  show max (x0 (ix2 p q) + broadcastTo S5000x256 x1 broadcasts_S1x256_S5000x256 (ix2 p q)) _ = _
  rw [broadcastTo_1b_ab_apply]
  rfl

/-- The printed index maps over the ten points: the input block of `x` and the output block move together down the
    rows (block t at point t), the bias row's one block stays. -/
theorem idx_facts : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) = t.val :=
  (by decide +kernel : ∀ t : Fin grid5.N, _)

/-- What point `t` writes back is block `t` of `act` of the two arrays as the region finds them. -/
theorem flushed_eq (c : Dev nD) (t : Fin cfg5.N) :
    (dat5 V c).flushed 2 t = ((cfg5.win 2).blk t).view.read (Elt Ideal) (act (V c main_v77) (V c main_v78)) := by
  show (cfg5.win 2).cut (grid5.coords t) ((dat5 V c).after 2 t) = _
  rw [after5_2]
  unfold out5_2
  rw [View.canon_unit_zero zeroOff]
  simp only [View.ld_unit_zero (S := S5000x256) zeroOff, View.ld_unit_zero (S := S1x256) zeroOff]
  obtain ⟨e0, e1, e2, e3, e4, e5⟩ := idx_facts t
  funext j
  have hj0 : (j 0).val < 5000 := (j 0).isLt
  have hj1 : (j 1).val < 256 := (j 1).isLt
  show k5_pay1 (iblk5 V c 0 t) (iblk5 V c 1 t) (ix2 (⟨(j 0).val, hj0⟩ : Fin 5000) (⟨(j 1).val, hj1⟩ : Fin 256))
    = act (V c main_v77) (V c main_v78) (((cfg5.win 2).blk t).view.emb j)
  refine (pay_at (iblk5 V c 0 t) (iblk5 V c 1 t) ⟨(j 0).val, hj0⟩ ⟨(j 1).val, hj1⟩).trans ?_
  show clampSum (V c main_v77 (((cfg5.win 0).blk t).view.emb (ix2 (⟨(j 0).val, hj0⟩ : Fin 5000) (⟨(j 1).val, hj1⟩ : Fin 256))))
        (V c main_v78 (((cfg5.win 1).blk t).view.emb (ix2 (0 : Fin 1) (⟨(j 1).val, hj1⟩ : Fin 256))))
    = clampSum (V c main_v77 (((cfg5.win 2).blk t).view.emb j))
        (V c main_v78 (ix2 (0 : Fin 1) (⟨((((cfg5.win 2).blk t).view.emb j) 1).val, ((((cfg5.win 2).blk t).view.emb j) 1).isLt⟩ : Fin 256)))
  have h0 : ((cfg5.win 0).blk t).view.emb (ix2 (⟨(j 0).val, hj0⟩ : Fin 5000) (⟨(j 1).val, hj1⟩ : Fin 256)) = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 256 + 1 * (j 1).val = win5_2.index t (1 : Fin 2) * 256 + 1 * (j 1).val; omega
  have h1 : ((cfg5.win 1).blk t).view.emb (ix2 (0 : Fin 1) (⟨(j 1).val, hj1⟩ : Fin 256))
      = ix2 (0 : Fin 1) (⟨((((cfg5.win 2).blk t).view.emb j) 1).val, ((((cfg5.win 2).blk t).view.emb j) 1).isLt⟩ : Fin 256) := by
    funext a; apply Fin.ext
    match a with
    | ⟨0, _⟩ => show win5_1.index t (0 : Fin 2) * 1 + 1 * 0 = 0; omega
    | ⟨1, _⟩ => show win5_1.index t (1 : Fin 2) * 256 + 1 * (j 1).val = win5_2.index t (1 : Fin 2) * 256 + 1 * (j 1).val; omega
  rw [h0, h1]

/-- An index of the array is in point `t`'s block iff each coordinate is in the block's range on its axis. -/
theorem mem_blk (t : Fin cfg5.N) (i : S50000x256.Idx) :
    i ∈ ((cfg5.win 2).blk t).view.set ↔ ∀ a : Fin 2, win5_2.index t a * S5000x256.size a ≤ (i a).val ∧ (i a).val < win5_2.index t a * S5000x256.size a + S5000x256.size a := by
  show i ∈ ((View.whole main_v79).slice (win5_2.rect t)).set ↔ _
  rw [View.set_slice_whole, Rect.mem_set_unit]
  exact Iff.rfl

/-- Every entry is in some point's block: row r is in block r / 5000. -/
theorem cover (i : S50000x256.Idx) : ∃ t : Fin cfg5.N, (cfg5.win 2).flush t = true ∧ i ∈ ((cfg5.win 2).blk t).view.set := by
  have hi0 : (i 0).val < 50000 := (i 0).isLt
  have hi1 : (i 1).val < 256 := (i 1).isLt
  have hN : grid5.N = 10 := N_5
  have ht : (i 0).val / 5000 < grid5.N := by rw [hN]; omega
  obtain ⟨e0, e1, e2, e3, e4, e5⟩ := idx_facts ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win5_2.index ⟨(i 0).val / 5000, ht⟩ (1 : Fin 2) * 256 ≤ (i 1).val ∧ (i 1).val < win5_2.index ⟨(i 0).val / 5000, ht⟩ (1 : Fin 2) * 256 + 256
    rw [e4]; omega

/-- The result array after the region: `act` of the two arrays the region was entered with. -/
theorem final (c : Dev nD) : (dat5 V c).arrAt 2 cfg5.N = act (V c main_v77) (V c main_v78) :=
  (dat5 V c).arrAt_eq_of_cover 2 _ (fun t _ => flushed_eq V c t) cover

end Cert.KernelIdeal.Act5

end
-- ==== Proof.Prod6.lean ====
/-
  Region 6 of the idealized kernel: the matrix product of a [50000, 256] array `x` with a [256, 256] array `w`, computed in
  ten row blocks of 5000. On the extended reals the rounding of both factors to bf16 is the identity and the product into
  a zero accumulator is the plain sum, so a block's stored value at (p, q) is the sum over k of x_block[p, k] · w[k, q];
  the block of `x` at point t is rows 5000 t … 5000 t + 4999, `w` is read whole, and the ten output blocks tile the
  rows. Hence the result array is, entry by entry, sum over k of x[r, k] · w[k, q] of the arrays the region was entered with.
-/
import proofs.«143142_j66022237274283_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.Prod6

variable (V : (c : Dev nD) → (b : Ref sig .tc) → Buf (Elt Ideal) ((c : Thread nD τ).loc b))

theorem zeroOff : (![0, 0] : Fin 2 → Nat) = fun _ => 0 := funext fun a => by fin_cases a <;> rfl

/-- Entry (r, q) of the product: the sum over the 256 contracted positions of x[r, k] · w[k, q]. -/
def prod (x : S50000x256.Idx → EReal) (w : S256x256.Idx → EReal) : S50000x256.Idx → EReal :=
  fun i => ∑ k : Fin 256, x (ix2 (⟨(i 0).val, (i 0).isLt⟩ : Fin 50000) k) * w (ix2 k (⟨(i 1).val, (i 1).isLt⟩ : Fin 256))

/-- The product's operand indices at output index `i` and contraction index `q`, coordinate by coordinate. -/
theorem lhs0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
theorem rhs0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem rhs1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The matrix unit's product into the zero accumulator, at entry (p, q): the sum over its one contracted axis,
    re-indexed by 0 … 255. -/
theorem mm_at (y0 : FVec Ideal S5000x256 .bf16) (y1 : FVec Ideal S256x256 .bf16) (p : Fin 5000) (q : Fin 256) :
    matmul dot_S5000x256_S256x256_S5000x256_1_0_0_1_n_n none y0 y1 (constant S5000x256 .f32 0x00000000#32) (ix2 p q) = ∑ k : Fin 256, y0 (ix2 p k) * y1 (ix2 k q) := by
  show FloatOps.matmul dot_S5000x256_S256x256_S5000x256_1_0_0_1_n_n none y0 y1 (constant S5000x256 .f32 0x00000000#32) (ix2 p q) = _
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k :=
    funext fun a => Fin.ext (by
      match a with
      | ⟨0, _⟩ => exact lhs0 _ _
      | ⟨1, _⟩ => exact (lhs1 _ _).trans hk)
  have er : dot_S5000x256_S256x256_S5000x256_1_0_0_1_n_n.rhsIdx (ix2 p q) ((contrEquiv1 dot_S5000x256_S256x256_S5000x256_1_0_0_1_n_n 256 rfl rfl).symm k) = ix2 k q :=
    funext fun a => Fin.ext (by
      match a with
      | ⟨0, _⟩ => exact (rhs0 _ _).trans hk
      | ⟨1, _⟩ => exact rhs1 _ _)
  rw [el, er]

/-- The body's stored value at entry (p, q) of a block: the two roundings to bf16 are the identity on the extended
    reals, so it is the product's sum over the loaded blocks themselves. -/
theorem pay_ix (x0 : Vec Ideal S5000x256 .f32) (x1 : Vec Ideal S256x256 .f32) (p : Fin 5000) (q : Fin 256) :
    k6_pay1 x0 x1 (ix2 p q) = ∑ k : Fin 256, x0 (ix2 p k) * x1 (ix2 k q) := by
  unfold k6_pay1
  try simp only [shapeCast_self]
  exact mm_at (truncf .bf16 x0 bitsLt_bf16_f32) (truncf .bf16 x1 bitsLt_bf16_f32) p q

/-- The same at any index of the block. -/
theorem pay_at (x0 : Vec Ideal S5000x256 .f32) (x1 : Vec Ideal S256x256 .f32) (j : S5000x256.Idx) :
    k6_pay1 x0 x1 j = ∑ k : Fin 256, x0 (ix2 (⟨(j 0).val, (j 0).isLt⟩ : Fin 5000) k) * x1 (ix2 k (⟨(j 1).val, (j 1).isLt⟩ : Fin 256)) := by
  obtain ⟨p, q, rfl⟩ : ∃ (p : Fin 5000) (q : Fin 256), j = ix2 p q := ⟨j 0, j 1, eq_ix2 j⟩
  exact pay_ix x0 x1 p q

/-- The printed index maps over the ten points: the block of `x` and the output block move together down the rows
    (block t at point t), `w`'s one block stays. -/
theorem idx_facts : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) = t.val :=
  (by decide +kernel : ∀ t : Fin grid6.N, _)

/-- What point `t` writes back is block `t` of `prod` of the two arrays as the region finds them. -/
theorem flushed_eq (c : Dev nD) (t : Fin cfg6.N) :
    (dat6 V c).flushed 2 t = ((cfg6.win 2).blk t).view.read (Elt Ideal) (prod (V c main_v79) (V c main_arg9)) := by
  show (cfg6.win 2).cut (grid6.coords t) ((dat6 V c).after 2 t) = _
  rw [after6_2]
  unfold out6_2
  rw [View.canon_unit_zero zeroOff]
  simp only [View.ld_unit_zero (S := S5000x256) zeroOff, View.ld_unit_zero (S := S256x256) zeroOff]
  obtain ⟨e0, e1, e2, e3, e4, e5⟩ := idx_facts t
  funext j
  have hj0 : (j 0).val < 5000 := (j 0).isLt
  have hj1 : (j 1).val < 256 := (j 1).isLt
  show k6_pay1 (iblk6 V c 0 t) (iblk6 V c 1 t) j = prod (V c main_v79) (V c main_arg9) (((cfg6.win 2).blk t).view.emb j)
  refine (pay_at (iblk6 V c 0 t) (iblk6 V c 1 t) j).trans ?_
  unfold prod
  refine Finset.sum_congr rfl fun k _ => ?_
  have h0 : ((cfg6.win 0).blk t).view.emb (ix2 (⟨(j 0).val, hj0⟩ : Fin 5000) k)
      = ix2 (⟨((((cfg6.win 2).blk t).view.emb j) 0).val, ((((cfg6.win 2).blk t).view.emb j) 0).isLt⟩ : Fin 50000) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 256 + 1 * k.val = k.val; omega
  have h1 : ((cfg6.win 1).blk t).view.emb (ix2 k (⟨(j 1).val, hj1⟩ : Fin 256))
      = ix2 k (⟨((((cfg6.win 2).blk t).view.emb j) 1).val, ((((cfg6.win 2).blk t).view.emb j) 1).isLt⟩ : Fin 256) := by
    funext a; apply Fin.ext
    match a with
    | ⟨0, _⟩ => show win6_1.index t (0 : Fin 2) * 256 + 1 * k.val = k.val; omega
    | ⟨1, _⟩ => show win6_1.index t (1 : Fin 2) * 256 + 1 * (j 1).val = win6_2.index t (1 : Fin 2) * 256 + 1 * (j 1).val; omega
  refine congr (congrArg HMul.hMul ?_) ?_
  · show V c main_v79 (((cfg6.win 0).blk t).view.emb (ix2 (⟨(j 0).val, hj0⟩ : Fin 5000) k)) = _
    rw [h0]
  · show V c main_arg9 (((cfg6.win 1).blk t).view.emb (ix2 k (⟨(j 1).val, hj1⟩ : Fin 256))) = _
    rw [h1]

/-- An index of the array is in point `t`'s block iff each coordinate is in the block's range on its axis. -/
theorem mem_blk (t : Fin cfg6.N) (i : S50000x256.Idx) :
    i ∈ ((cfg6.win 2).blk t).view.set ↔ ∀ a : Fin 2, win6_2.index t a * S5000x256.size a ≤ (i a).val ∧ (i a).val < win6_2.index t a * S5000x256.size a + S5000x256.size a := by
  show i ∈ ((View.whole main_v80).slice (win6_2.rect t)).set ↔ _
  rw [View.set_slice_whole, Rect.mem_set_unit]
  exact Iff.rfl

/-- Every entry is in some point's block: row r is in block r / 5000. -/
theorem cover (i : S50000x256.Idx) : ∃ t : Fin cfg6.N, (cfg6.win 2).flush t = true ∧ i ∈ ((cfg6.win 2).blk t).view.set := by
  have hi0 : (i 0).val < 50000 := (i 0).isLt
  have hi1 : (i 1).val < 256 := (i 1).isLt
  have hN : grid6.N = 10 := N_6
  have ht : (i 0).val / 5000 < grid6.N := by rw [hN]; omega
  obtain ⟨e0, e1, e2, e3, e4, e5⟩ := idx_facts ⟨(i 0).val / 5000, ht⟩
  refine ⟨⟨(i 0).val / 5000, ht⟩, flush6_2 _, ?_⟩
  rw [mem_blk]
  intro a
  match a with
  | ⟨0, _⟩ =>
    show win6_2.index ⟨(i 0).val / 5000, ht⟩ (0 : Fin 2) * 5000 ≤ (i 0).val ∧ (i 0).val < win6_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win6_2.index ⟨(i 0).val / 5000, ht⟩ (1 : Fin 2) * 256 ≤ (i 1).val ∧ (i 1).val < win6_2.index ⟨(i 0).val / 5000, ht⟩ (1 : Fin 2) * 256 + 256
    rw [e4]; omega

/-- The result array after the region: the product of the two arrays the region was entered with. -/
theorem final (c : Dev nD) : (dat6 V c).arrAt 2 cfg6.N = prod (V c main_v79) (V c main_arg9) :=
  (dat6 V c).arrAt_eq_of_cover 2 _ (fun t _ => flushed_eq V c t) cover

end Cert.KernelIdeal.Prod6

end
-- ==== Proof.Act7.lean ====
/-
  Region 7 of the idealized kernel: `max (x + b) 0` over a [50000, 256] array `x` and a [1, 256] row `b`, computed in
  ten row blocks of 5000. Each block's stored value is, entry by entry, `max (x[r, q] + b[0, q]) 0` of the block of `x`
  that sits at the same rows; the ten blocks tile the rows (the block that holds row r is r / 5000), so the result array is
  that one function of the two arrays the region was entered with.
-/
import proofs.«143142_j66022237274283_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.Act7

variable (V : (c : Dev nD) → (b : Ref sig .tc) → Buf (Elt Ideal) ((c : Thread nD τ).loc b))

theorem zeroOff : (![0, 0] : Fin 2 → Nat) = fun _ => 0 := funext fun a => by fin_cases a <;> rfl

/-- A sum of two extended reals, not below zero. -/
def clampSum (a b : EReal) : EReal := max (a + b) (Ideal.ofBits .f32 0x00000000#32)

/-- Entry (r, q) of the result: the entry of `x` plus the bias row's entry of the same column, not below zero. -/
def act (x : S50000x256.Idx → EReal) (b : S1x256.Idx → EReal) : S50000x256.Idx → EReal :=
  fun i => clampSum (x i) (b (ix2 (0 : Fin 1) (⟨(i 1).val, (i 1).isLt⟩ : Fin 256)))

/-- The body's stored value at entry (p, q) of a block: the identity casts dropped, the row broadcast read at its column. -/
theorem pay_at (x0 : Vec Ideal S5000x256 .f32) (x1 : Vec Ideal S1x256 .f32) (p : Fin 5000) (q : Fin 256) :
    k7_pay1 x0 x1 (ix2 p q) = clampSum (x0 (ix2 p q)) (x1 (ix2 (0 : Fin 1) q)) := by
  unfold k7_pay1
  simp only [shapeCast_self]
  show max (x0 (ix2 p q) + broadcastTo S5000x256 x1 broadcasts_S1x256_S5000x256 (ix2 p q)) _ = _
  rw [broadcastTo_1b_ab_apply]
  rfl

/-- The printed index maps over the ten points: the input block of `x` and the output block move together down the
    rows (block t at point t), the bias row's one block stays. -/
theorem idx_facts : ∀ t : Fin cfg7.N, win7_0.index t (0 : Fin 2) = win7_2.index t (0 : Fin 2)
    ∧ win7_0.index t (1 : Fin 2) = 0 ∧ win7_1.index t (0 : Fin 2) = 0 ∧ win7_1.index t (1 : Fin 2) = 0
    ∧ win7_2.index t (1 : Fin 2) = 0 ∧ win7_2.index t (0 : Fin 2) = t.val :=
  (by decide +kernel : ∀ t : Fin grid7.N, _)

/-- What point `t` writes back is block `t` of `act` of the two arrays as the region finds them. -/
theorem flushed_eq (c : Dev nD) (t : Fin cfg7.N) :
    (dat7 V c).flushed 2 t = ((cfg7.win 2).blk t).view.read (Elt Ideal) (act (V c main_v93) (V c main_v94)) := by
  show (cfg7.win 2).cut (grid7.coords t) ((dat7 V c).after 2 t) = _
  rw [after7_2]
  unfold out7_2
  rw [View.canon_unit_zero zeroOff]
  simp only [View.ld_unit_zero (S := S5000x256) zeroOff, View.ld_unit_zero (S := S1x256) zeroOff]
  obtain ⟨e0, e1, e2, e3, e4, e5⟩ := idx_facts t
  funext j
  have hj0 : (j 0).val < 5000 := (j 0).isLt
  have hj1 : (j 1).val < 256 := (j 1).isLt
  show k7_pay1 (iblk7 V c 0 t) (iblk7 V c 1 t) (ix2 (⟨(j 0).val, hj0⟩ : Fin 5000) (⟨(j 1).val, hj1⟩ : Fin 256))
    = act (V c main_v93) (V c main_v94) (((cfg7.win 2).blk t).view.emb j)
  refine (pay_at (iblk7 V c 0 t) (iblk7 V c 1 t) ⟨(j 0).val, hj0⟩ ⟨(j 1).val, hj1⟩).trans ?_
  show clampSum (V c main_v93 (((cfg7.win 0).blk t).view.emb (ix2 (⟨(j 0).val, hj0⟩ : Fin 5000) (⟨(j 1).val, hj1⟩ : Fin 256))))
        (V c main_v94 (((cfg7.win 1).blk t).view.emb (ix2 (0 : Fin 1) (⟨(j 1).val, hj1⟩ : Fin 256))))
    = clampSum (V c main_v93 (((cfg7.win 2).blk t).view.emb j))
        (V c main_v94 (ix2 (0 : Fin 1) (⟨((((cfg7.win 2).blk t).view.emb j) 1).val, ((((cfg7.win 2).blk t).view.emb j) 1).isLt⟩ : Fin 256)))
  have h0 : ((cfg7.win 0).blk t).view.emb (ix2 (⟨(j 0).val, hj0⟩ : Fin 5000) (⟨(j 1).val, hj1⟩ : Fin 256)) = ((cfg7.win 2).blk t).view.emb j := by
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 256 + 1 * (j 1).val = win7_2.index t (1 : Fin 2) * 256 + 1 * (j 1).val; omega
  have h1 : ((cfg7.win 1).blk t).view.emb (ix2 (0 : Fin 1) (⟨(j 1).val, hj1⟩ : Fin 256))
      = ix2 (0 : Fin 1) (⟨((((cfg7.win 2).blk t).view.emb j) 1).val, ((((cfg7.win 2).blk t).view.emb j) 1).isLt⟩ : Fin 256) := by
    funext a; apply Fin.ext
    match a with
    | ⟨0, _⟩ => show win7_1.index t (0 : Fin 2) * 1 + 1 * 0 = 0; omega
    | ⟨1, _⟩ => show win7_1.index t (1 : Fin 2) * 256 + 1 * (j 1).val = win7_2.index t (1 : Fin 2) * 256 + 1 * (j 1).val; omega
  rw [h0, h1]

/-- An index of the array is in point `t`'s block iff each coordinate is in the block's range on its axis. -/
theorem mem_blk (t : Fin cfg7.N) (i : S50000x256.Idx) :
    i ∈ ((cfg7.win 2).blk t).view.set ↔ ∀ a : Fin 2, win7_2.index t a * S5000x256.size a ≤ (i a).val ∧ (i a).val < win7_2.index t a * S5000x256.size a + S5000x256.size a := by
  show i ∈ ((View.whole main_v95).slice (win7_2.rect t)).set ↔ _
  rw [View.set_slice_whole, Rect.mem_set_unit]
  exact Iff.rfl

/-- Every entry is in some point's block: row r is in block r / 5000. -/
theorem cover (i : S50000x256.Idx) : ∃ t : Fin cfg7.N, (cfg7.win 2).flush t = true ∧ i ∈ ((cfg7.win 2).blk t).view.set := by
  have hi0 : (i 0).val < 50000 := (i 0).isLt
  have hi1 : (i 1).val < 256 := (i 1).isLt
  have hN : grid7.N = 10 := N_7
  have ht : (i 0).val / 5000 < grid7.N := by rw [hN]; omega
  obtain ⟨e0, e1, e2, e3, e4, e5⟩ := idx_facts ⟨(i 0).val / 5000, ht⟩
  refine ⟨⟨(i 0).val / 5000, ht⟩, flush7_2 _, ?_⟩
  rw [mem_blk]
  intro a
  match a with
  | ⟨0, _⟩ =>
    show win7_2.index ⟨(i 0).val / 5000, ht⟩ (0 : Fin 2) * 5000 ≤ (i 0).val ∧ (i 0).val < win7_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win7_2.index ⟨(i 0).val / 5000, ht⟩ (1 : Fin 2) * 256 ≤ (i 1).val ∧ (i 1).val < win7_2.index ⟨(i 0).val / 5000, ht⟩ (1 : Fin 2) * 256 + 256
    rw [e4]; omega

/-- The result array after the region: `act` of the two arrays the region was entered with. -/
theorem final (c : Dev nD) : (dat7 V c).arrAt 2 cfg7.N = act (V c main_v93) (V c main_v94) :=
  (dat7 V c).arrAt_eq_of_cover 2 _ (fun t _ => flushed_eq V c t) cover

end Cert.KernelIdeal.Act7

end
-- ==== Proof.ProdBias8.lean ====
/-
  Region 8 of the idealized kernel, the final linear layer: the matrix product of a [50000, 256] array `x` with a
  [256, 1] array `w`, plus the one bias entry `b` of a [1, 1] array, computed in ten row blocks of 5000. On the
  extended reals the roundings to bf16 are the identity and the product into a zero accumulator is the plain sum, so a
  block's stored value at (p, q) is (sum over k of x_block[p, k] · w[k, q]) + b[0, q]; the ten output blocks tile the rows.
  Hence the result array is, entry by entry, (sum over k of x[r, k] · w[k, q]) + b[0, q] of the arrays the region was entered with.
-/
import proofs.«143142_j66022237274283_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Cert.KernelIdeal Cert.KernelIdeal.Gen
open Idealize.ShloMosaic Idealize.ShloMosaic.TcCoe Idealize.SL.Sem Idealize.ShloMosaic.ValueIdx
open Idealize.ShloMosaic.Pipeline (Dat)

namespace Cert.KernelIdeal.ProdBias8

variable (V : (c : Dev nD) → (b : Ref sig .tc) → Buf (Elt Ideal) ((c : Thread nD τ).loc b))

theorem zeroOff : (![0, 0] : Fin 2 → Nat) = fun _ => 0 := funext fun a => by fin_cases a <;> rfl

/-- Entry (r, q) of the result: the sum over the 256 contracted positions of x[r, k] · w[k, q], plus the bias entry. -/
def prodBias (x : S50000x256.Idx → EReal) (w : S256x1.Idx → EReal) (b : S1x1.Idx → EReal) : S50000x1.Idx → EReal :=
  fun i => (∑ k : Fin 256, x (ix2 (⟨(i 0).val, (i 0).isLt⟩ : Fin 50000) k) * w (ix2 k (⟨(i 1).val, (i 1).isLt⟩ : Fin 1)))
    + b (ix2 (0 : Fin 1) (⟨(i 1).val, (i 1).isLt⟩ : Fin 1))

/-- The product's operand indices at output index `i` and contraction index `q`, coordinate by coordinate. -/
theorem lhs0 (i : S5000x1.Idx) (q : dot_S5000x256_S256x1_S5000x1_1_0_0_1_n_n.contr.Idx) : (dot_S5000x256_S256x1_S5000x1_1_0_0_1_n_n.lhsIdx i q 0).val = (i 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
theorem lhs1 (i : S5000x1.Idx) (q : dot_S5000x256_S256x1_S5000x1_1_0_0_1_n_n.contr.Idx) : (dot_S5000x256_S256x1_S5000x1_1_0_0_1_n_n.lhsIdx i q 1).val = (q ⟨0, by decide⟩).val :=
  dot_S5000x256_S256x1_S5000x1_1_0_0_1_n_n.lhsIdx_val_of_single rfl i q
theorem rhs0 (i : S5000x1.Idx) (q : dot_S5000x256_S256x1_S5000x1_1_0_0_1_n_n.contr.Idx) : (dot_S5000x256_S256x1_S5000x1_1_0_0_1_n_n.rhsIdx i q 0).val = (q ⟨0, by decide⟩).val :=
  dot_S5000x256_S256x1_S5000x1_1_0_0_1_n_n.rhsIdx_val_of_single rfl i q
theorem rhs1 (i : S5000x1.Idx) (q : dot_S5000x256_S256x1_S5000x1_1_0_0_1_n_n.contr.Idx) : (dot_S5000x256_S256x1_S5000x1_1_0_0_1_n_n.rhsIdx i q 1).val = (i 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

/-- The matrix unit's product into the zero accumulator, at entry (p, q): the sum over its one contracted axis,
    re-indexed by 0 … 255. -/
theorem mm_at (y0 : FVec Ideal S5000x256 .bf16) (y1 : FVec Ideal S256x1 .bf16) (p : Fin 5000) (q : Fin 1) :
    matmul dot_S5000x256_S256x1_S5000x1_1_0_0_1_n_n none y0 y1 (constant S5000x1 .f32 0x00000000#32) (ix2 p q) = ∑ k : Fin 256, y0 (ix2 p k) * y1 (ix2 k q) := by
  show FloatOps.matmul dot_S5000x256_S256x1_S5000x1_1_0_0_1_n_n none y0 y1 (constant S5000x1 .f32 0x00000000#32) (ix2 p q) = _
  rw [Ideal.matmul_constant_zero_apply, ← Equiv.sum_comp (contrEquiv1 dot_S5000x256_S256x1_S5000x1_1_0_0_1_n_n 256 rfl rfl).symm]
  refine Finset.sum_congr rfl fun k _ => ?_
  have hk := contrEquiv1_symm_val dot_S5000x256_S256x1_S5000x1_1_0_0_1_n_n 256 rfl rfl k
  have el : dot_S5000x256_S256x1_S5000x1_1_0_0_1_n_n.lhsIdx (ix2 p q) ((contrEquiv1 dot_S5000x256_S256x1_S5000x1_1_0_0_1_n_n 256 rfl rfl).symm k) = ix2 p k :=
    funext fun a => Fin.ext (by
      match a with
      | ⟨0, _⟩ => exact lhs0 _ _
      | ⟨1, _⟩ => exact (lhs1 _ _).trans hk)
  have er : dot_S5000x256_S256x1_S5000x1_1_0_0_1_n_n.rhsIdx (ix2 p q) ((contrEquiv1 dot_S5000x256_S256x1_S5000x1_1_0_0_1_n_n 256 rfl rfl).symm k) = ix2 k q :=
    funext fun a => Fin.ext (by
      match a with
      | ⟨0, _⟩ => exact (rhs0 _ _).trans hk
      | ⟨1, _⟩ => exact rhs1 _ _)
  rw [el, er]

/-- The body's stored value at entry (p, q) of a block: the roundings to bf16 are the identity on the extended reals,
    so it is the product's sum over the loaded blocks themselves, plus the one bias entry broadcast down the rows. -/
theorem pay_ix (x0 : Vec Ideal S5000x256 .f32) (x1 : Vec Ideal S256x1 .f32) (x2 : Vec Ideal S1x1 .f32) (p : Fin 5000) (q : Fin 1) :
    k8_pay1 x0 x1 x2 (ix2 p q) = (∑ k : Fin 256, x0 (ix2 p k) * x1 (ix2 k q)) + x2 (ix2 (0 : Fin 1) q) := by
  unfold k8_pay1
  simp only [shapeCast_self]
  refine congr (congrArg HAdd.hAdd (mm_at (truncf .bf16 x0 bitsLt_bf16_f32) (truncf .bf16 x1 bitsLt_bf16_f32) p q)) ?_
  exact broadcastTo_1b_ab_apply x2 broadcasts_S1x1_S5000x1 p q

/-- The same at any index of the block. -/
theorem pay_at (x0 : Vec Ideal S5000x256 .f32) (x1 : Vec Ideal S256x1 .f32) (x2 : Vec Ideal S1x1 .f32) (j : S5000x1.Idx) :
    k8_pay1 x0 x1 x2 j = (∑ k : Fin 256, x0 (ix2 (⟨(j 0).val, (j 0).isLt⟩ : Fin 5000) k) * x1 (ix2 k (⟨(j 1).val, (j 1).isLt⟩ : Fin 1)))
      + x2 (ix2 (0 : Fin 1) (⟨(j 1).val, (j 1).isLt⟩ : Fin 1)) := by
  obtain ⟨p, q, rfl⟩ : ∃ (p : Fin 5000) (q : Fin 1), j = ix2 p q := ⟨j 0, j 1, eq_ix2 j⟩
  exact pay_ix x0 x1 x2 p q

/-- The printed index maps over the ten points: the block of `x` and the output block move together down the rows
    (block t at point t); `w`'s and the bias's one block stay. -/
theorem idx_facts : ∀ t : Fin cfg8.N, win8_0.index t (0 : Fin 2) = win8_3.index t (0 : Fin 2)
    ∧ win8_0.index t (1 : Fin 2) = 0 ∧ win8_1.index t (0 : Fin 2) = 0 ∧ win8_1.index t (1 : Fin 2) = 0
    ∧ win8_2.index t (0 : Fin 2) = 0 ∧ win8_2.index t (1 : Fin 2) = 0
    ∧ win8_3.index t (1 : Fin 2) = 0 ∧ win8_3.index t (0 : Fin 2) = t.val :=
  (by decide +kernel : ∀ t : Fin grid8.N, _)

/-- What point `t` writes back is block `t` of `prodBias` of the three arrays as the region finds them. -/
theorem flushed_eq (c : Dev nD) (t : Fin cfg8.N) :
    (dat8 V c).flushed 3 t = ((cfg8.win 3).blk t).view.read (Elt Ideal) (prodBias (V c main_v95) (V c main_arg11) (V c main_v96)) := by
  show (cfg8.win 3).cut (grid8.coords t) ((dat8 V c).after 3 t) = _
  rw [after8_3]
  unfold out8_3
  rw [View.canon_unit_zero zeroOff]
  simp only [View.ld_unit_zero (S := S5000x256) zeroOff, View.ld_unit_zero (S := S256x1) zeroOff, View.ld_unit_zero (S := S1x1) zeroOff]
  obtain ⟨e0, e1, e2, e3, e4, e5, e6, e7⟩ := idx_facts t
  funext j
  have hj0 : (j 0).val < 5000 := (j 0).isLt
  have hj1 : (j 1).val < 1 := (j 1).isLt
  show k8_pay1 (iblk8 V c 0 t) (iblk8 V c 1 t) (iblk8 V c 2 t) j
    = prodBias (V c main_v95) (V c main_arg11) (V c main_v96) (((cfg8.win 3).blk t).view.emb j)
  refine (pay_at (iblk8 V c 0 t) (iblk8 V c 1 t) (iblk8 V c 2 t) j).trans ?_
  unfold prodBias
  have h2 : ((cfg8.win 2).blk t).view.emb (ix2 (0 : Fin 1) (⟨(j 1).val, hj1⟩ : Fin 1))
      = ix2 (0 : Fin 1) (⟨((((cfg8.win 3).blk t).view.emb j) 1).val, ((((cfg8.win 3).blk t).view.emb j) 1).isLt⟩ : Fin 1) := by
    funext a; apply Fin.ext
    match a with
    | ⟨0, _⟩ => show win8_2.index t (0 : Fin 2) * 1 + 1 * 0 = 0; omega
    | ⟨1, _⟩ => show win8_2.index t (1 : Fin 2) * 1 + 1 * (j 1).val = win8_3.index t (1 : Fin 2) * 1 + 1 * (j 1).val; omega
  refine congr (congrArg HAdd.hAdd (Finset.sum_congr rfl fun k _ => ?_)) ?_
  · have h0 : ((cfg8.win 0).blk t).view.emb (ix2 (⟨(j 0).val, hj0⟩ : Fin 5000) k)
        = ix2 (⟨((((cfg8.win 3).blk t).view.emb j) 0).val, ((((cfg8.win 3).blk t).view.emb j) 0).isLt⟩ : Fin 50000) k := by
      funext a; apply Fin.ext
      match a with
      | ⟨0, _⟩ => show win8_0.index t (0 : Fin 2) * 5000 + 1 * (j 0).val = win8_3.index t (0 : Fin 2) * 5000 + 1 * (j 0).val; omega
      | ⟨1, _⟩ => show win8_0.index t (1 : Fin 2) * 256 + 1 * k.val = k.val; omega
    have h1 : ((cfg8.win 1).blk t).view.emb (ix2 k (⟨(j 1).val, hj1⟩ : Fin 1))
        = ix2 k (⟨((((cfg8.win 3).blk t).view.emb j) 1).val, ((((cfg8.win 3).blk t).view.emb j) 1).isLt⟩ : Fin 1) := by
      funext a; apply Fin.ext
      match a with
      | ⟨0, _⟩ => show win8_1.index t (0 : Fin 2) * 256 + 1 * k.val = k.val; omega
      | ⟨1, _⟩ => show win8_1.index t (1 : Fin 2) * 1 + 1 * (j 1).val = win8_3.index t (1 : Fin 2) * 1 + 1 * (j 1).val; omega
    refine congr (congrArg HMul.hMul ?_) ?_
    · show V c main_v95 (((cfg8.win 0).blk t).view.emb (ix2 (⟨(j 0).val, hj0⟩ : Fin 5000) k)) = _
      rw [h0]
    · show V c main_arg11 (((cfg8.win 1).blk t).view.emb (ix2 k (⟨(j 1).val, hj1⟩ : Fin 1))) = _
      rw [h1]
  · show V c main_v96 (((cfg8.win 2).blk t).view.emb (ix2 (0 : Fin 1) (⟨(j 1).val, hj1⟩ : Fin 1))) = _
    rw [h2]

/-- An index of the array is in point `t`'s block iff each coordinate is in the block's range on its axis. -/
theorem mem_blk (t : Fin cfg8.N) (i : S50000x1.Idx) :
    i ∈ ((cfg8.win 3).blk t).view.set ↔ ∀ a : Fin 2, win8_3.index t a * S5000x1.size a ≤ (i a).val ∧ (i a).val < win8_3.index t a * S5000x1.size a + S5000x1.size a := by
  show i ∈ ((View.whole main_v97).slice (win8_3.rect t)).set ↔ _
  rw [View.set_slice_whole, Rect.mem_set_unit]
  exact Iff.rfl

/-- Every entry is in some point's block: row r is in block r / 5000. -/
theorem cover (i : S50000x1.Idx) : ∃ t : Fin cfg8.N, (cfg8.win 3).flush t = true ∧ i ∈ ((cfg8.win 3).blk t).view.set := by
  have hi0 : (i 0).val < 50000 := (i 0).isLt
  have hi1 : (i 1).val < 1 := (i 1).isLt
  have hN : grid8.N = 10 := N_8
  have ht : (i 0).val / 5000 < grid8.N := by rw [hN]; omega
  obtain ⟨e0, e1, e2, e3, e4, e5, e6, e7⟩ := idx_facts ⟨(i 0).val / 5000, ht⟩
  refine ⟨⟨(i 0).val / 5000, ht⟩, flush8_3 _, ?_⟩
  rw [mem_blk]
  intro a
  match a with
  | ⟨0, _⟩ =>
    show win8_3.index ⟨(i 0).val / 5000, ht⟩ (0 : Fin 2) * 5000 ≤ (i 0).val ∧ (i 0).val < win8_3.index ⟨(i 0).val / 5000, ht⟩ (0 : Fin 2) * 5000 + 5000
    rw [e7]; show (i 0).val / 5000 * 5000 ≤ (i 0).val ∧ (i 0).val < (i 0).val / 5000 * 5000 + 5000; omega
  | ⟨1, _⟩ =>
    show win8_3.index ⟨(i 0).val / 5000, ht⟩ (1 : Fin 2) * 1 ≤ (i 1).val ∧ (i 1).val < win8_3.index ⟨(i 0).val / 5000, ht⟩ (1 : Fin 2) * 1 + 1
    rw [e6]; omega

/-- The result array after the region: `prodBias` of the three arrays the region was entered with. -/
theorem final (c : Dev nD) : (dat8 V c).arrAt 3 cfg8.N = prodBias (V c main_v95) (V c main_arg11) (V c main_v96) :=
  (dat8 V c).arrAt_eq_of_cover 3 _ (fun t _ => flushed_eq V c t) cover

end Cert.KernelIdeal.ProdBias8

end
-- ==== Proof.Bridge.lean ====
/-
  Each region of the idealized kernel, read at the reference's operands, is the reference's stage. A product region's
  result is entry by entry the sum over the contracted positions of x[r, k] · w[k, q], which is what the host's
  `dot_general` is on the extended reals; a bias-and-clamp region's is max (x[r, q] + b[q]) 0, which is the reference's
  broadcast sum followed by its `relu`; the last region's is the product plus the one bias entry. Only the spelling of
  the indices differs, coordinate by coordinate.
-/
import proofs.«143142_j66022237274283_1_alg».proof.Proof.Prod0
import proofs.«143142_j66022237274283_1_alg».proof.Proof.Act1
import proofs.«143142_j66022237274283_1_alg».proof.Proof.Prod2
import proofs.«143142_j66022237274283_1_alg».proof.Proof.Act3
import proofs.«143142_j66022237274283_1_alg».proof.Proof.Prod4
import proofs.«143142_j66022237274283_1_alg».proof.Proof.Act5
import proofs.«143142_j66022237274283_1_alg».proof.Proof.Prod6
import proofs.«143142_j66022237274283_1_alg».proof.Proof.Act7
import proofs.«143142_j66022237274283_1_alg».proof.Proof.ProdBias8
import proofs.«143142_j66022237274283_1_alg».proof.Proof.Gen.ReferenceIdeal.Read
import Idealize.ShloMosaic.Lib.ValueLayout

set_option maxRecDepth 16384

noncomputable section

namespace Cert.KernelIdeal.Bridge

open Cert.KernelIdeal Cert.KernelIdeal.Gen Cert.ReferenceIdeal.Read
open Idealize.ShloMosaic Idealize.ShloMosaic.TcCoe Idealize.SL.Sem Idealize.ShloMosaic.ValueIdx

/-- Region 0's product, at the reference's operands, is the reference's `dot_general` stage: both are, entry by entry, the sum
    over the 128 contracted positions of x[r, k] · w[k, q]. -/
theorem prod0_eq {x0 : (⟨Cert.ReferenceIdeal.S50000x128, .f32⟩ : BufTy).Contents (Elt Ideal)} {x3 : (⟨Cert.ReferenceIdeal.S128x64, .f32⟩ : BufTy).Contents (Elt Ideal)} :
    Prod0.prod x0 x3 = val_main_v9 (F := Ideal) x0 x3 := by
  funext i
  rw [val_main_v9_apply]
  unfold Prod0.prod
  refine Finset.sum_congr rfl fun k _ => ?_
  have e1 : ix2 (⟨(i 0).val, (i 0).isLt⟩ : Fin 50000) k = lidx_main_v9 i k :=
    funext fun a => match a with | ⟨0, _⟩ => rfl | ⟨1, _⟩ => rfl
  have e2 : ix2 k (⟨(i 1).val, (i 1).isLt⟩ : Fin 64) = ridx_main_v9 i k :=
    funext fun a => match a with | ⟨0, _⟩ => rfl | ⟨1, _⟩ => rfl
  rw [e1, e2]

/-- Region 1's bias-and-clamp, at the reference's operands, is the reference's `relu` of the sum with the broadcast bias:
    both are, entry by entry, max (x[r, q] + b[q]) 0 (the kernel reads the bias re-laid as one row, the reference broadcasts it). -/
theorem act1_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} :
    Act1.act (val_main_v45 (F := Ideal) x0 x1 x2 x3) (shapeCast S1x64 x4 shapeCasts_S64_S1x64) = val_main_v49 (F := Ideal) x0 x1 x2 x3 x4 := by
  funext i
  rw [val_main_v49_apply, val_main_v48_apply, val_main_v47_apply, val_main_v46_apply, val_main_call1_v0_apply, val_main_call1_cst_apply]
  unfold Act1.act Act1.clampSum
  rw [shapeCast_a_1a_apply]
  have e : ix1 (⟨(i 1).val, (i 1).isLt⟩ : Fin 64) = idx_main_v46 (idx_main_v47 i) :=
    funext fun a => match a with | ⟨0, _⟩ => rfl
  rw [e]
  rfl

/-- Region 2's product, at the reference's operands, is the reference's `dot_general` stage: both are, entry by entry, the sum
    over the 64 contracted positions of x[r, k] · w[k, q]. -/
theorem prod2_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)} :
    Prod2.prod (val_main_v49 (F := Ideal) x0 x1 x2 x3 x4) x5 = val_main_v50 (F := Ideal) x0 x1 x2 x3 x4 x5 := by
  funext i
  rw [val_main_v50_apply]
  unfold Prod2.prod
  refine Finset.sum_congr rfl fun k _ => ?_
  have e1 : ix2 (⟨(i 0).val, (i 0).isLt⟩ : Fin 50000) k = lidx_main_v50 i k :=
    funext fun a => match a with | ⟨0, _⟩ => rfl | ⟨1, _⟩ => rfl
  have e2 : ix2 k (⟨(i 1).val, (i 1).isLt⟩ : Fin 128) = ridx_main_v50 i k :=
    funext fun a => match a with | ⟨0, _⟩ => rfl | ⟨1, _⟩ => rfl
  rw [e1, e2]

/-- Region 3's bias-and-clamp, at the reference's operands, is the reference's `relu` of the sum with the broadcast bias:
    both are, entry by entry, max (x[r, q] + b[q]) 0 (the kernel reads the bias re-laid as one row, the reference broadcasts it). -/
theorem act3_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)} {x6 : (⟨Cert.ReferenceIdeal.S128, .f32⟩ : BufTy).Contents (Elt Ideal)} :
    Act3.act (val_main_v86 (F := Ideal) x0 x1 x2 x3 x4 x5) (shapeCast S1x128 x6 shapeCasts_S128_S1x128) = val_main_v90 (F := Ideal) x0 x1 x2 x3 x4 x5 x6 := by
  funext i
  rw [val_main_v90_apply, val_main_v89_apply, val_main_v88_apply, val_main_v87_apply, val_main_call3_v0_apply, val_main_call3_cst_apply]
  unfold Act3.act Act3.clampSum
  rw [shapeCast_a_1a_apply]
  have e : ix1 (⟨(i 1).val, (i 1).isLt⟩ : Fin 128) = idx_main_v87 (idx_main_v88 i) :=
    funext fun a => match a with | ⟨0, _⟩ => rfl
  rw [e]
  rfl

/-- Region 4's product, at the reference's operands, is the reference's `dot_general` stage: both are, entry by entry, the sum
    over the 128 contracted positions of x[r, k] · w[k, q]. -/
theorem prod4_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)} {x6 : (⟨Cert.ReferenceIdeal.S128, .f32⟩ : BufTy).Contents (Elt Ideal)} {x7 : (⟨Cert.ReferenceIdeal.S128x256, .f32⟩ : BufTy).Contents (Elt Ideal)} :
    Prod4.prod (val_main_v90 (F := Ideal) x0 x1 x2 x3 x4 x5 x6) x7 = val_main_v91 (F := Ideal) x0 x1 x2 x3 x4 x5 x6 x7 := by
  funext i
  rw [val_main_v91_apply]
  unfold Prod4.prod
  refine Finset.sum_congr rfl fun k _ => ?_
  have e1 : ix2 (⟨(i 0).val, (i 0).isLt⟩ : Fin 50000) k = lidx_main_v91 i k :=
    funext fun a => match a with | ⟨0, _⟩ => rfl | ⟨1, _⟩ => rfl
  have e2 : ix2 k (⟨(i 1).val, (i 1).isLt⟩ : Fin 256) = ridx_main_v91 i k :=
    funext fun a => match a with | ⟨0, _⟩ => rfl | ⟨1, _⟩ => rfl
  rw [e1, e2]

/-- Region 5's bias-and-clamp, at the reference's operands, is the reference's `relu` of the sum with the broadcast bias:
    both are, entry by entry, max (x[r, q] + b[q]) 0 (the kernel reads the bias re-laid as one row, the reference broadcasts it). -/
theorem act5_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)} {x6 : (⟨Cert.ReferenceIdeal.S128, .f32⟩ : BufTy).Contents (Elt Ideal)} {x7 : (⟨Cert.ReferenceIdeal.S128x256, .f32⟩ : BufTy).Contents (Elt Ideal)} {x8 : (⟨Cert.ReferenceIdeal.S256, .f32⟩ : BufTy).Contents (Elt Ideal)} :
    Act5.act (val_main_v127 (F := Ideal) x0 x1 x2 x3 x4 x5 x6 x7) (shapeCast S1x256 x8 shapeCasts_S256_S1x256) = val_main_v131 (F := Ideal) x0 x1 x2 x3 x4 x5 x6 x7 x8 := by
  funext i
  rw [val_main_v131_apply, val_main_v130_apply, val_main_v129_apply, val_main_v128_apply, val_main_call5_v0_apply, val_main_call5_cst_apply]
  unfold Act5.act Act5.clampSum
  rw [shapeCast_a_1a_apply]
  have e : ix1 (⟨(i 1).val, (i 1).isLt⟩ : Fin 256) = idx_main_v128 (idx_main_v129 i) :=
    funext fun a => match a with | ⟨0, _⟩ => rfl
  rw [e]
  rfl

/-- Region 6's product, at the reference's operands, is the reference's `dot_general` stage: both are, entry by entry, the sum
    over the 256 contracted positions of x[r, k] · w[k, q]. -/
theorem prod6_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)} {x6 : (⟨Cert.ReferenceIdeal.S128, .f32⟩ : BufTy).Contents (Elt Ideal)} {x7 : (⟨Cert.ReferenceIdeal.S128x256, .f32⟩ : BufTy).Contents (Elt Ideal)} {x8 : (⟨Cert.ReferenceIdeal.S256, .f32⟩ : BufTy).Contents (Elt Ideal)} {x9 : (⟨Cert.ReferenceIdeal.S256x256, .f32⟩ : BufTy).Contents (Elt Ideal)} :
    Prod6.prod (val_main_v131 (F := Ideal) x0 x1 x2 x3 x4 x5 x6 x7 x8) x9 = val_main_v132 (F := Ideal) x0 x1 x2 x3 x4 x5 x6 x7 x8 x9 := by
  funext i
  rw [val_main_v132_apply]
  unfold Prod6.prod
  refine Finset.sum_congr rfl fun k _ => ?_
  have e1 : ix2 (⟨(i 0).val, (i 0).isLt⟩ : Fin 50000) k = lidx_main_v132 i k :=
    funext fun a => match a with | ⟨0, _⟩ => rfl | ⟨1, _⟩ => rfl
  have e2 : ix2 k (⟨(i 1).val, (i 1).isLt⟩ : Fin 256) = ridx_main_v132 i k :=
    funext fun a => match a with | ⟨0, _⟩ => rfl | ⟨1, _⟩ => rfl
  rw [e1, e2]

/-- Region 7's bias-and-clamp, at the reference's operands, is the reference's `relu` of the sum with the broadcast bias:
    both are, entry by entry, max (x[r, q] + b[q]) 0 (the kernel reads the bias re-laid as one row, the reference broadcasts it). -/
theorem act7_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)} {x6 : (⟨Cert.ReferenceIdeal.S128, .f32⟩ : BufTy).Contents (Elt Ideal)} {x7 : (⟨Cert.ReferenceIdeal.S128x256, .f32⟩ : BufTy).Contents (Elt Ideal)} {x8 : (⟨Cert.ReferenceIdeal.S256, .f32⟩ : BufTy).Contents (Elt Ideal)} {x9 : (⟨Cert.ReferenceIdeal.S256x256, .f32⟩ : BufTy).Contents (Elt Ideal)} {x10 : (⟨Cert.ReferenceIdeal.S256, .f32⟩ : BufTy).Contents (Elt Ideal)} :
    Act7.act (val_main_v168 (F := Ideal) x0 x1 x2 x3 x4 x5 x6 x7 x8 x9) (shapeCast S1x256 x10 shapeCasts_S256_S1x256) = val_main_v172 (F := Ideal) x0 x1 x2 x3 x4 x5 x6 x7 x8 x9 x10 := by
  funext i
  rw [val_main_v172_apply, val_main_v171_apply, val_main_v170_apply, val_main_v169_apply, val_main_call7_v0_apply, val_main_call7_cst_apply]
  unfold Act7.act Act7.clampSum
  rw [shapeCast_a_1a_apply]
  have e : ix1 (⟨(i 1).val, (i 1).isLt⟩ : Fin 256) = idx_main_v169 (idx_main_v170 i) :=
    funext fun a => match a with | ⟨0, _⟩ => rfl
  rw [e]
  rfl

/-- The last region, at the reference's operands, is the reference's result: the `dot_general` with the [256, 1] weights plus the
    broadcast bias entry (the kernel reads the bias re-laid as a [1, 1] array). -/
theorem final_eq {x0 : (⟨Cert.ReferenceIdeal.S50000x128, .f32⟩ : BufTy).Contents (Elt Ideal)} {x1 : (⟨Cert.ReferenceIdeal.S2x800000, .i32⟩ : BufTy).Contents (Elt Ideal)} {x2 : (⟨Cert.ReferenceIdeal.S800000, .f32⟩ : BufTy).Contents (Elt Ideal)} {x3 : (⟨Cert.ReferenceIdeal.S128x64, .f32⟩ : BufTy).Contents (Elt Ideal)} {x4 : (⟨Cert.ReferenceIdeal.S64, .f32⟩ : BufTy).Contents (Elt Ideal)} {x5 : (⟨Cert.ReferenceIdeal.S64x128, .f32⟩ : BufTy).Contents (Elt Ideal)} {x6 : (⟨Cert.ReferenceIdeal.S128, .f32⟩ : BufTy).Contents (Elt Ideal)} {x7 : (⟨Cert.ReferenceIdeal.S128x256, .f32⟩ : BufTy).Contents (Elt Ideal)} {x8 : (⟨Cert.ReferenceIdeal.S256, .f32⟩ : BufTy).Contents (Elt Ideal)} {x9 : (⟨Cert.ReferenceIdeal.S256x256, .f32⟩ : BufTy).Contents (Elt Ideal)} {x10 : (⟨Cert.ReferenceIdeal.S256, .f32⟩ : BufTy).Contents (Elt Ideal)} {x11 : (⟨Cert.ReferenceIdeal.S256x1, .f32⟩ : BufTy).Contents (Elt Ideal)} {x12 : (⟨Cert.ReferenceIdeal.S1, .f32⟩ : BufTy).Contents (Elt Ideal)} :
    ProdBias8.prodBias (val_main_v172 (F := Ideal) x0 x1 x2 x3 x4 x5 x6 x7 x8 x9 x10) x11 (shapeCast S1x1 x12 shapeCasts_S1_S1x1) = val_main_v176 (F := Ideal) x0 x1 x2 x3 x4 x5 x6 x7 x8 x9 x10 x11 x12 := by
  funext i
  rw [val_main_v176_apply, val_main_v173_apply, val_main_v175_apply, val_main_v174_apply]
  unfold ProdBias8.prodBias
  rw [shapeCast_a_1a_apply]
  have e : ix1 (⟨(i 1).val, (i 1).isLt⟩ : Fin 1) = idx_main_v174 (idx_main_v175 i) :=
    funext fun a => match a with | ⟨0, _⟩ => Fin.ext (by have hlt : (i 1).val < 1 := (i 1).isLt; show (i 1).val = 0; omega)
  rw [e]
  refine congr (congrArg HAdd.hAdd (Finset.sum_congr rfl fun k _ => ?_)) rfl
  have e1 : ix2 (⟨(i 0).val, (i 0).isLt⟩ : Fin 50000) k = lidx_main_v173 i k :=
    funext fun a => match a with | ⟨0, _⟩ => rfl | ⟨1, _⟩ => rfl
  have e2 : ix2 k (⟨(i 1).val, (i 1).isLt⟩ : Fin 1) = ridx_main_v173 i k :=
    funext fun a => match a with | ⟨0, _⟩ => rfl | ⟨1, _⟩ => rfl
  rw [e1, e2]

end Cert.KernelIdeal.Bridge

end
-- ==== Proof.Fold.lean ====
/-
  The idealized kernel's result as a function of its arguments. Walking the seventeen segment boundaries forward from
  the launch: the three host stretches before the first region leave the edge lists and the edge coefficients at the
  reference's stages; each product region leaves the reference's `dot_general` of what the layer started from; each
  layer's host stretch leaves the reference's gather–scale–scatter-sum of that; each bias-and-clamp region leaves the
  reference's `relu` of the sum with the bias; and the last region leaves the reference's result. Between two uses a
  buffer is carried unchanged across the segments that do not write it. So the result buffer ends at the reference's
  last stage of the thirteen argument arrays.
-/
import proofs.«143142_j66022237274283_1_alg».proof.Proof.Keep
import proofs.«143142_j66022237274283_1_alg».proof.Proof.HostStages
import proofs.«143142_j66022237274283_1_alg».proof.Proof.Bridge

set_option maxRecDepth 16384

noncomputable section

namespace Cert.KernelIdeal.Fold

open Cert.KernelIdeal Cert.KernelIdeal.Gen Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-! ## The edge data: source list, target list, coefficients -/

/-- What every layer reads of the edges, at a boundary's contents `W`. -/
structure Edges (W : Valuation τ sig (Elt Ideal)) : Prop where
  src : W (Proc.devRef .tc main_v3) = val_main_v3 (F := Ideal) (m ((c : Thread nD τ).loc main_arg1))
  dst : W (Proc.devRef .tc main_v6) = val_main_v6 (F := Ideal) (m ((c : Thread nD τ).loc main_arg1))
  nrm : W (Proc.devRef .tc main_v31) = val_main_v32 (F := Ideal) (m ((c : Thread nD τ).loc main_arg1)) (m ((c : Thread nD τ).loc main_arg2))

theorem src1 : W1 m ρ c (Proc.devRef .tc main_v3) = val_main_v3 (F := Ideal) (m ((c : Thread nD τ).loc main_arg1)) := Stages.src_eq (W0 m ρ c)
theorem dst1 : W1 m ρ c (Proc.devRef .tc main_v6) = val_main_v6 (F := Ideal) (m ((c : Thread nD τ).loc main_arg1)) := Stages.dst_eq (W0 m ρ c)
theorem wts1 : W1 m ρ c (Proc.devRef .tc main_v8) = val_main_v8 (F := Ideal) (m ((c : Thread nD τ).loc main_arg2)) := Stages.wts_eq (W0 m ρ c)
theorem dinv2 : W2 m ρ c (Proc.devRef .tc main_v15) = val_main_v16 (F := Ideal) (m ((c : Thread nD τ).loc main_arg1)) (m ((c : Thread nD τ).loc main_arg2)) :=
  Stages.dinv_eq (W1 m ρ c) (Stages.pos_eq (W0 m ρ c)) (Stages.rsq_eq (W0 m ρ c)) (Stages.zero_eq (W0 m ρ c))
theorem src2 : W2 m ρ c (Proc.devRef .tc main_v3) = val_main_v3 (F := Ideal) (m ((c : Thread nD τ).loc main_arg1)) := (Keep.k2 m ρ c main_v3 (by decide)).trans (src1 m ρ c)
theorem dst2 : W2 m ρ c (Proc.devRef .tc main_v6) = val_main_v6 (F := Ideal) (m ((c : Thread nD τ).loc main_arg1)) := (Keep.k2 m ρ c main_v6 (by decide)).trans (dst1 m ρ c)
theorem wts2 : W2 m ρ c (Proc.devRef .tc main_v8) = val_main_v8 (F := Ideal) (m ((c : Thread nD τ).loc main_arg2)) := (Keep.k2 m ρ c main_v8 (by decide)).trans (wts1 m ρ c)

theorem edges3 : Edges m c (W3 m ρ c) where
  src := (Keep.k3 m ρ c main_v3 (by decide)).trans (src2 m ρ c)
  dst := (Keep.k3 m ρ c main_v6 (by decide)).trans (dst2 m ρ c)
  nrm := Stages.norm_eq (W2 m ρ c) (src2 m ρ c) (dst2 m ρ c) (wts2 m ρ c) (dinv2 m ρ c)
theorem edges4 : Edges m c (W4 m ρ c) where
  src := (W4_of_ne m ρ c main_v3 (by decide)).trans (edges3 m ρ c).src
  dst := (W4_of_ne m ρ c main_v6 (by decide)).trans (edges3 m ρ c).dst
  nrm := (W4_of_ne m ρ c main_v31 (by decide)).trans (edges3 m ρ c).nrm
theorem edges7 : Edges m c (W7 m ρ c) where
  src := (Keep.s4_7 m ρ c main_v3 (by decide) (by decide)).trans (edges4 m ρ c).src
  dst := (Keep.s4_7 m ρ c main_v6 (by decide) (by decide)).trans (edges4 m ρ c).dst
  nrm := (Keep.s4_7 m ρ c main_v31 (by decide) (by decide)).trans (edges4 m ρ c).nrm
theorem edges10 : Edges m c (W10 m ρ c) where
  src := (Keep.s7_10 m ρ c main_v3 (by decide) (by decide)).trans (edges7 m ρ c).src
  dst := (Keep.s7_10 m ρ c main_v6 (by decide) (by decide)).trans (edges7 m ρ c).dst
  nrm := (Keep.s7_10 m ρ c main_v31 (by decide) (by decide)).trans (edges7 m ρ c).nrm
theorem edges13 : Edges m c (W13 m ρ c) where
  src := (Keep.s10_13 m ρ c main_v3 (by decide) (by decide)).trans (edges10 m ρ c).src
  dst := (Keep.s10_13 m ρ c main_v6 (by decide) (by decide)).trans (edges10 m ρ c).dst
  nrm := (Keep.s10_13 m ρ c main_v31 (by decide) (by decide)).trans (edges10 m ρ c).nrm

/-! ## Layer 1 -/

theorem proj1 : W4 m ρ c (Proc.devRef .tc main_v32) = val_main_v9 (F := Ideal) (m ((c : Thread nD τ).loc main_arg0)) (m ((c : Thread nD τ).loc main_arg3)) :=
  (W4_arr m ρ c 2).trans <| (Prod0.final (V3 m ρ) c).trans <|
    (congrArg₂ Prod0.prod (Keep.to3 m ρ c main_arg0 (by decide)) (Keep.to3 m ρ c main_arg3 (by decide))).trans Bridge.prod0_eq
theorem agg1 : W5 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) :=
  Stages.agg1_eq (W4 m ρ c) (edges4 m ρ c).src (edges4 m ρ c).dst (edges4 m ρ c).nrm (proj1 m ρ c)
theorem bias1 : W5 m ρ c (Proc.devRef .tc main_v46) = shapeCast S1x64 (m ((c : Thread nD τ).loc main_arg4)) shapeCasts_S64_S1x64 :=
  (Stages.bias1_eq (W4 m ρ c)).trans (congrArg (fun x => shapeCast S1x64 x shapeCasts_S64_S1x64) (Keep.to4 m ρ c main_arg4 (by decide)))
theorem out1 : W6 m ρ c (Proc.devRef .tc main_v47) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 2).trans <| (Act1.final (V5 m ρ) c).trans <| (congrArg₂ Act1.act (agg1 m ρ c) (bias1 m ρ c)).trans Bridge.act1_eq

/-! ## Layer 2 -/

theorem proj2 : W7 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans <| (Prod2.final (V6 m ρ) c).trans <|
    (congrArg₂ Prod2.prod (out1 m ρ c) (Keep.to6 m ρ c main_arg5 (by decide) (by decide))).trans Bridge.prod2_eq
theorem agg2 : W8 m ρ c (Proc.devRef .tc main_v61) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stages.agg2_eq (W7 m ρ c) (edges7 m ρ c).src (edges7 m ρ c).dst (edges7 m ρ c).nrm (proj2 m ρ c)
theorem bias2 : W8 m ρ c (Proc.devRef .tc main_v62) = shapeCast S1x128 (m ((c : Thread nD τ).loc main_arg6)) shapeCasts_S128_S1x128 :=
  (Stages.bias2_eq (W7 m ρ c)).trans (congrArg (fun x => shapeCast S1x128 x shapeCasts_S128_S1x128) (Keep.to7 m ρ c main_arg6 (by decide)))
theorem out2 : W9 m ρ c (Proc.devRef .tc main_v63) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 2).trans <| (Act3.final (V8 m ρ) c).trans <| (congrArg₂ Act3.act (agg2 m ρ c) (bias2 m ρ c)).trans Bridge.act3_eq

/-! ## Layer 3 -/

theorem proj3 : W10 m ρ c (Proc.devRef .tc main_v64) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 2).trans <| (Prod4.final (V9 m ρ) c).trans <|
    (congrArg₂ Prod4.prod (out2 m ρ c) (Keep.to9 m ρ c main_arg7 (by decide) (by decide))).trans Bridge.prod4_eq
theorem agg3 : W11 m ρ c (Proc.devRef .tc main_v77) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Stages.agg3_eq (W10 m ρ c) (edges10 m ρ c).src (edges10 m ρ c).dst (edges10 m ρ c).nrm (proj3 m ρ c)
theorem bias3 : W11 m ρ c (Proc.devRef .tc main_v78) = shapeCast S1x256 (m ((c : Thread nD τ).loc main_arg8)) shapeCasts_S256_S1x256 :=
  (Stages.bias3_eq (W10 m ρ c)).trans (congrArg (fun x => shapeCast S1x256 x shapeCasts_S256_S1x256) (Keep.to10 m ρ c main_arg8 (by decide)))
theorem out3 : W12 m ρ c (Proc.devRef .tc main_v79) = val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W12_arr m ρ c 2).trans <| (Act5.final (V11 m ρ) c).trans <| (congrArg₂ Act5.act (agg3 m ρ c) (bias3 m ρ c)).trans Bridge.act5_eq

/-! ## Layer 4 -/

theorem proj4 : W13 m ρ c (Proc.devRef .tc main_v80) = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W13_arr m ρ c 2).trans <| (Prod6.final (V12 m ρ) c).trans <|
    (congrArg₂ Prod6.prod (out3 m ρ c) (Keep.to12 m ρ c main_arg9 (by decide) (by decide))).trans Bridge.prod6_eq
theorem agg4 : W14 m ρ c (Proc.devRef .tc main_v93) = val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  Stages.agg4_eq (W13 m ρ c) (edges13 m ρ c).src (edges13 m ρ c).dst (edges13 m ρ c).nrm (proj4 m ρ c)
theorem bias4 : W14 m ρ c (Proc.devRef .tc main_v94) = shapeCast S1x256 (m ((c : Thread nD τ).loc main_arg10)) shapeCasts_S256_S1x256 :=
  (Stages.bias4_eq (W13 m ρ c)).trans (congrArg (fun x => shapeCast S1x256 x shapeCasts_S256_S1x256) (Keep.to13 m ρ c main_arg10 (by decide)))
theorem out4 : W15 m ρ c (Proc.devRef .tc main_v95) = val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W15_arr m ρ c 2).trans <| (Act7.final (V14 m ρ) c).trans <| (congrArg₂ Act7.act (agg4 m ρ c) (bias4 m ρ c)).trans Bridge.act7_eq

/-! ## The final linear layer -/

theorem out4' : W16 m ρ c (Proc.devRef .tc main_v95) = val_main_v172 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Keep.k16 m ρ c main_v95 (by decide)).trans (out4 m ρ c)
theorem bias5 : W16 m ρ c (Proc.devRef .tc main_v96) = shapeCast S1x1 (m ((c : Thread nD τ).loc main_arg12)) shapeCasts_S1_S1x1 :=
  (Stages.bias5_eq (W15 m ρ c)).trans (congrArg (fun x => shapeCast S1x1 x shapeCasts_S1_S1x1) (Keep.to15 m ρ c main_arg12 (by decide)))

/-- The result buffer at the last boundary is the reference's last stage of the thirteen arguments. -/
theorem result : W17 m ρ c (Proc.devRef .tc main_v97) = val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W17_arr m ρ c 3).trans <| (ProdBias8.final (V16 m ρ) c).trans <|
    (congr (congrArg₂ ProdBias8.prodBias (out4' m ρ c) (Keep.to16 m ρ c main_arg11 (by decide))) (bias5 m ρ c)).trans Bridge.final_eq

end Cert.KernelIdeal.Fold

end
-- ==== Proof.lean ====
/-
  The certificate of a four-layer edge-weighted graph convolution followed by a linear layer, whose dense parts the
  kernel runs as nine row-blocked pipelined regions (four matrix products, four bias-and-clamp passes, one product with
  a bias), against the plain reference.

  On the extended reals the two programs are one function of the thirteen arguments. Every region writes ten blocks of
  5000 rows that tile its result; a product region's entry (r, q) is the sum over k of x[r, k] · w[k, q] — the roundings of
  the factors to bf16 are the identity there, and the product into a zero accumulator is the plain sum —, which is the
  host's `dot_general`; a bias-and-clamp region's entry is max (x[r, q] + b[q]) 0, the reference's `relu` of the broadcast sum.
  Between the regions both programs apply the same host operations to the same operands: the gather of the projected rows
  at the edge sources, the scaling by one coefficient per edge, the scatter-sum into the edge targets. The only
  difference in arrangement is that the kernel computes the edge coefficients (from the weighted degrees) once and the
  reference once per layer; they are the same function of the edge list and the edge weights. No law of arithmetic is
  needed beyond that: the proof never opens a gather, a scatter-sum or a square root, and never uses that the inputs are
  finite.

  Modules: Prod0/2/4/6, Act1/3/5/7, ProdBias8 (each region's result array as one index-wise function of the arrays it
  was entered with), KernelRun (the kernel's run with the result buffer's final contents named), Keep (which segments
  leave which buffers alone), HostStages (each host stretch's results as the reference's stages), Bridge (each region's
  function at the reference's operands is the reference's stage), Fold (the walk through the seventeen segment
  boundaries). The three frames are the generated ones (the reference's: its generated run with the result dropped);
  the idealization rewrote nothing, so `preserves` is trivial.
-/
import proofs.«143142_j66022237274283_1_alg».proof.Defs
import proofs.«143142_j66022237274283_1_alg».proof.Proof.Gen.Kernel
import proofs.«143142_j66022237274283_1_alg».proof.Proof.Gen.Kernel.Frame
import proofs.«143142_j66022237274283_1_alg».proof.Proof.Gen.KernelIdeal
import proofs.«143142_j66022237274283_1_alg».proof.Proof.Gen.KernelIdeal.Frame
import proofs.«143142_j66022237274283_1_alg».proof.Proof.Gen.ReferenceIdeal
import proofs.«143142_j66022237274283_1_alg».proof.Proof.Gen.ReferenceIdeal.Run
import proofs.«143142_j66022237274283_1_alg».proof.Proof.Gen.ReferenceIdeal.Read
import proofs.«143142_j66022237274283_1_alg».proof.Proof.Gen.Pre_finite_inputs
import proofs.«143142_j66022237274283_1_alg».proof.Proof.KernelRun
import proofs.«143142_j66022237274283_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result at the reference's last stage of the
    kernel's thirteen argument arrays: the kernel by the walk through its segments, the reference by its run, its
    arguments rewritten by the agreement. -/
theorem algebraic : Cert.algebraic_KernelIdeal_ReferenceIdeal := by
  intro m ρ m' ρ' _ hagree
  refine ⟨fun c => Cert.ReferenceIdeal.Read.val_main_v176 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.Fold.result m ρ c), (h c).2⟩)
      (Cert.KernelIdeal.RunV.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v176_eq]
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
